-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x1024 : Shape := ⟨2, ![8192, 1024]⟩
abbrev S1024x2048 : Shape := ⟨2, ![1024, 2048]⟩
abbrev S1024 : Shape := ⟨1, ![1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024x2048 : S_.BroadcastsInDim S1024x2048 (![] : Fin 0 → Fin S1024x2048.rank)
  reducesTo_S1024x2048_S_d0_1 : S1024x2048.ReducesTo [0, 1] S_
  bcast_S_S1024 : S_.BroadcastsInDim S1024 (![] : Fin 0 → Fin S1024.rank)
  reducesTo_S1024_S_d0 : S1024.ReducesTo [0] S_

variable [Facts]

def fn_part3 {F : FTy → Type} [FloatOps F] (main_v48 : IVec S_ 1) (main_v49 : FVec F S1024 .f32) (main_v50 : FVec F S1024 .f32) : IVec S_ 1 :=
  let main_v51 : IVec S1024 1 := cmpf .olt main_v49 main_v50
  let main_c_19 : IVec S_ 1 := constantI S_ 1 1#1
  let main_v52 : IVec S_ 1 := (fun x v => Host.reduce IntOp.andi x v reducesTo_S1024_S_d0 h_S_) main_v51 main_c_19
  let main_v53 : IVec S_ 1 := andi main_v48 main_v52
  main_v53

def fn_part2 {F : FTy → Type} [FloatOps F] (main_arg7 : FVec F S1024x2048 .f32) (main_arg8 : FVec F S1024 .f32) (main_arg9 : FVec F S1024x2048 .f32) (main_arg10 : FVec F S1024 .f32) (main_v33 : IVec S_ 1) : IVec S_ 1 :=
  let main_v34 : FVec F S1024x2048 .f32 := Host.absf main_arg7
  let main_cst_12 : FVec F S_ .f32 := constant S_ .f32 0x7F800000#32
  let main_v35 : FVec F S1024x2048 .f32 := broadcastInDim S1024x2048 ![] bcast_S_S1024x2048 main_cst_12
  let main_v36 : IVec S1024x2048 1 := cmpf .olt main_v34 main_v35
  let main_c_13 : IVec S_ 1 := constantI S_ 1 1#1
  let main_v37 : IVec S_ 1 := (fun x v => Host.reduce IntOp.andi x v reducesTo_S1024x2048_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  let main_v44 : FVec F S1024x2048 .f32 := Host.absf main_arg9
  let main_cst_16 : FVec F S_ .f32 := constant S_ .f32 0x7F800000#32
  let main_v45 : FVec F S1024x2048 .f32 := broadcastInDim S1024x2048 ![] bcast_S_S1024x2048 main_cst_16
  let main_v46 : IVec S1024x2048 1 := cmpf .olt main_v44 main_v45
  let main_c_17 : IVec S_ 1 := constantI S_ 1 1#1
  let main_v47 : IVec S_ 1 := (fun x v => Host.reduce IntOp.andi x v reducesTo_S1024x2048_S_d0_1 h_S_) main_v46 main_c_17
  let main_v48 : IVec S_ 1 := andi main_v43 main_v47
  let main_v49 : FVec F S1024 .f32 := Host.absf main_arg10
  let main_cst_18 : FVec F S_ .f32 := constant S_ .f32 0x7F800000#32
  let main_v50 : FVec F S1024 .f32 := broadcastInDim S1024 ![] bcast_S_S1024 main_cst_18
  fn_part3 (F := F) main_v48 main_v49 main_v50

def fn_part1 {F : FTy → Type} [FloatOps F] (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) (main_v13 : IVec S_ 1) (main_v16 : IVec S1024x2048 1) : IVec S_ 1 :=
  let main_c_5 : IVec S_ 1 := constantI S_ 1 1#1
  let main_v17 : IVec S_ 1 := (fun x v => Host.reduce IntOp.andi x v reducesTo_S1024x2048_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x2048 .f32 := Host.absf main_arg5
  let main_cst_8 : FVec F S_ .f32 := constant S_ .f32 0x7F800000#32
  let main_v25 : FVec F S1024x2048 .f32 := broadcastInDim S1024x2048 ![] bcast_S_S1024x2048 main_cst_8
  let main_v26 : IVec S1024x2048 1 := cmpf .olt main_v24 main_v25
  let main_c_9 : IVec S_ 1 := constantI S_ 1 1#1
  let main_v27 : IVec S_ 1 := (fun x v => Host.reduce IntOp.andi x v reducesTo_S1024x2048_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S8192x1024 .f32) (main_arg1 : FVec F S8192x1024 .f32) (main_arg2 : FVec F S8192x1024 .f32) (main_arg3 : FVec F S1024x2048 .f32) (main_arg4 : FVec F S1024 .f32) (main_arg5 : FVec F S1024x2048 .f32) (main_arg6 : FVec F S1024 .f32) (main_arg7 : FVec F S1024x2048 .f32) (main_arg8 : FVec F S1024 .f32) (main_arg9 : FVec F S1024x2048 .f32) (main_arg10 : FVec F S1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S8192x1024 .f32 := Host.absf main_arg1
  let main_cst_0 : FVec F S_ .f32 := constant S_ .f32 0x7F800000#32
  let main_v5 : FVec F S8192x1024 .f32 := broadcastInDim S8192x1024 ![] bcast_S_S8192x1024 main_cst_0
  let main_v6 : IVec S8192x1024 1 := cmpf .olt main_v4 main_v5
  let main_c_1 : IVec S_ 1 := constantI S_ 1 1#1
  let main_v7 : IVec S_ 1 := (fun x v => Host.reduce IntOp.andi x v reducesTo_S8192x1024_S_d0_1 h_S_) main_v6 main_c_1
  let main_v8 : IVec S_ 1 := andi main_v3 main_v7
  let main_v9 : FVec F S8192x1024 .f32 := Host.absf main_arg2
  let main_cst_2 : FVec F S_ .f32 := constant S_ .f32 0x7F800000#32
  let main_v10 : FVec F S8192x1024 .f32 := broadcastInDim S8192x1024 ![] bcast_S_S8192x1024 main_cst_2
  let main_v11 : IVec S8192x1024 1 := cmpf .olt main_v9 main_v10
  let main_c_3 : IVec S_ 1 := constantI S_ 1 1#1
  let main_v12 : IVec S_ 1 := (fun x v => Host.reduce IntOp.andi x v reducesTo_S8192x1024_S_d0_1 h_S_) main_v11 main_c_3
  let main_v13 : IVec S_ 1 := andi main_v8 main_v12
  let main_v14 : FVec F S1024x2048 .f32 := Host.absf main_arg3
  let main_cst_4 : FVec F S_ .f32 := constant S_ .f32 0x7F800000#32
  let main_v15 : FVec F S1024x2048 .f32 := broadcastInDim S1024x2048 ![] bcast_S_S1024x2048 main_cst_4
  let main_v16 : IVec S1024x2048 1 := cmpf .olt main_v14 main_v15
  fn_part1 (F := F) main_arg4 main_arg5 main_arg6 main_arg7 main_arg8 main_arg9 main_arg10 main_v13 main_v16
-- ==== Kernel.lean ====
abbrev S8192x1024 : Shape := ⟨2, ![8192, 1024]⟩
abbrev S1024x2048 : Shape := ⟨2, ![1024, 2048]⟩
abbrev S1024 : Shape := ⟨1, ![1024]⟩
abbrev S4096x2048 : Shape := ⟨2, ![4096, 2048]⟩
abbrev S4096 : Shape := ⟨1, ![4096]⟩
abbrev S2048x4096 : Shape := ⟨2, ![2048, 4096]⟩
abbrev S1x4096 : Shape := ⟨2, ![1, 4096]⟩
abbrev S256x1024 : Shape := ⟨2, ![256, 1024]⟩
abbrev S1024x4096 : Shape := ⟨2, ![1024, 4096]⟩
abbrev S256x4096 : Shape := ⟨2, ![256, 4096]⟩

abbrev nBuf : Space → Nat
  | .hbm => 18
  | .vmem => 12
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S4096x2048, .f32⟩
  | .hbm, ⟨12, _⟩ => ⟨S4096, .f32⟩
  | .hbm, ⟨13, _⟩ => ⟨S2048x4096, .f32⟩
  | .hbm, ⟨14, _⟩ => ⟨S2048x4096, .bf16⟩
  | .hbm, ⟨15, _⟩ => ⟨S1x4096, .f32⟩
  | .hbm, ⟨16, _⟩ => ⟨S8192x1024, .f32⟩
  | .hbm, ⟨17, _⟩ => ⟨S8192x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S256x1024, .f32⟩
  | .local _ .vmem, ⟨6, _⟩ => ⟨S2048x4096, .bf16⟩
  | .local _ .vmem, ⟨7, _⟩ => ⟨S1x4096, .f32⟩
  | .local _ .vmem, ⟨8, _⟩ => ⟨S256x1024, .f32⟩
  | .local _ .vmem, ⟨9, _⟩ => ⟨S256x1024, .f32⟩
  | .local _ .vmem, ⟨10, _⟩ => ⟨S256x1024, .f32⟩
  | .local _ .vmem, ⟨11, _⟩ => ⟨S256x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5_0 : Ref sig .tc := ⟨.hbm, 16, rfl⟩
abbrev main_v5_1 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S2048x4096 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bitsLt_bf16_f32 : FTy.bits .bf16 < FTy.bits .f32
  shapeCasts_S4096_S1x4096 : S4096.ShapeCasts S1x4096
  inb_S256x1024_S256x1024_0_0 : ∀ a, (![0, 0] : Fin 2 → Nat) a + S256x1024.size a ≤ S256x1024.size a
  h_S256x1024 : 0 < S256x1024.numel
  inb_S2048x4096_S1024x4096_0_0 : ∀ a, (![0, 0] : Fin 2 → Nat) a + S1024x4096.size a ≤ S2048x4096.size a
  h_S1024x4096 : 0 < S1024x4096.numel
  shapeCasts_S1024x4096_S1024x4096 : S1024x4096.ShapeCasts S1024x4096
  inb_S2048x4096_S1024x4096_1024_0 : ∀ a, (![1024, 0] : Fin 2 → Nat) a + S1024x4096.size a ≤ S2048x4096.size a
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  slices_S256x4096_o0_0_S256x1024 : S256x4096.Slices ![0, 0] S256x1024
  slices_S256x4096_o0_1024_S256x1024 : S256x4096.Slices ![0, 1024] S256x1024
  slices_S256x4096_o0_2048_S256x1024 : S256x4096.Slices ![0, 2048] S256x1024
  slices_S256x4096_o0_3072_S256x1024 : S256x4096.Slices ![0, 3072] S256x1024
  dot_S256x1024_S1024x4096_S256x4096_1_0_0_1_n_n_wf : DotDims.WF S256x1024 S1024x4096 S256x4096 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1024.size a ≤ S8192x1024.size a
  hwx0_0 : ∀ i : grid0.Coords, EltTy.bits .f32 = 32 ∨ (Rect.block (s := S8192x1024) S256x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1024.size a ≤ S8192x1024.size a
  hwx0_1 : ∀ i : grid0.Coords, EltTy.bits .f32 = 32 ∨ (Rect.block (s := S8192x1024) S256x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x1024.size a ≤ S8192x1024.size a
  hwx0_2 : ∀ i : grid0.Coords, EltTy.bits .f32 = 32 ∨ (Rect.block (s := S8192x1024) S256x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S2048x4096.size a ≤ S2048x4096.size a
  hwx0_3 : ∀ i : grid0.Coords, EltTy.bits .bf16 = 32 ∨ (Rect.block (s := S2048x4096) S2048x4096.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x4096.size a ≤ S1x4096.size a
  hwx0_4 : ∀ i : grid0.Coords, EltTy.bits .f32 = 32 ∨ (Rect.block (s := S1x4096) S1x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S8192x1024.size a
  hwx0_5 : ∀ i : grid0.Coords, EltTy.bits .f32 = 32 ∨ (Rect.block (s := S8192x1024) S256x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1024.size a ≤ S8192x1024.size a
  hwx0_6 : ∀ i : grid0.Coords, EltTy.bits .f32 = 32 ∨ (Rect.block (s := S8192x1024) S256x1024.size (cc0_transform_6 i) (hinb0_6 i)).WholeWords (EltTy.packing .f32)

variable [Facts₀]

def dot_S256x1024_S1024x4096_S256x4096_1_0_0_1_n_n : DotDims S256x1024 S1024x4096 S256x4096 where
  lhsContracting := [1]
  rhsContracting := [0]
  lhsNonContracting := [0]
  rhsNonContracting := [1]
  lhsBatch := []
  rhsBatch := []
  wf := dot_S256x1024_S1024x4096_S256x4096_1_0_0_1_n_n_wf

abbrev win0_0 : Pipeline.Window sig grid0 :=
  Pipeline.Window.ofSpec (Memref.whole main_arg1) S256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S256x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S256x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S2048x4096.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x4096.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v5_0) S256x1024.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v5_1) S256x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x1024 : Shape := ⟨2, ![8192, 1024]⟩
abbrev S1024x2048 : Shape := ⟨2, ![1024, 2048]⟩
abbrev S1024 : Shape := ⟨1, ![1024]⟩
abbrev S8192x2048 : Shape := ⟨2, ![8192, 2048]⟩
abbrev S4096x2048 : Shape := ⟨2, ![4096, 2048]⟩
abbrev S4096 : Shape := ⟨1, ![4096]⟩
abbrev S2048x4096 : Shape := ⟨2, ![2048, 4096]⟩
abbrev S8192x4096 : Shape := ⟨2, ![8192, 4096]⟩
abbrev S1x4096 : Shape := ⟨2, ![1, 4096]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .f32⟩
  | .hbm, ⟨3, _⟩ => ⟨S1024x2048, .f32⟩
  | .hbm, ⟨4, _⟩ => ⟨S1024, .f32⟩
  | .hbm, ⟨5, _⟩ => ⟨S1024x2048, .f32⟩
  | .hbm, ⟨6, _⟩ => ⟨S1024, .f32⟩
  | .hbm, ⟨7, _⟩ => ⟨S1024x2048, .f32⟩
  | .hbm, ⟨8, _⟩ => ⟨S1024, .f32⟩
  | .hbm, ⟨9, _⟩ => ⟨S1024x2048, .f32⟩
  | .hbm, ⟨10, _⟩ => ⟨S1024, .f32⟩
  | .hbm, ⟨11, _⟩ => ⟨S8192x2048, .f32⟩
  | .hbm, ⟨12, _⟩ => ⟨S4096x2048, .f32⟩
  | .hbm, ⟨13, _⟩ => ⟨S4096, .f32⟩
  | .hbm, ⟨14, _⟩ => ⟨S2048x4096, .f32⟩
  | .hbm, ⟨15, _⟩ => ⟨S8192x4096, .f32⟩
  | .hbm, ⟨16, _⟩ => ⟨S1x4096, .f32⟩
  | .hbm, ⟨17, _⟩ => ⟨S8192x4096, .f32⟩
  | .hbm, ⟨18, _⟩ => ⟨S8192x4096, .f32⟩
  | .hbm, ⟨19, _⟩ => ⟨S8192x1024, .f32⟩
  | .hbm, ⟨20, _⟩ => ⟨S8192x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192x1024, .f32⟩
  | .hbm, ⟨30, _⟩ => ⟨S8192x1024, .f32⟩
  | .hbm, ⟨31, _⟩ => ⟨S8192x1024, .f32⟩
  | .hbm, ⟨32, _⟩ => ⟨S8192x1024, .f32⟩
  | .hbm, ⟨33, _⟩ => ⟨S_, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S_, .f32⟩
  | .hbm, ⟨42, _⟩ => ⟨S8192x1024, .f32⟩
  | .hbm, ⟨43, _⟩ => ⟨S8192x1024, .f32⟩
  | .hbm, ⟨44, _⟩ => ⟨S_, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S8192x1024, .f32⟩
  | .hbm, ⟨52, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_cst_0 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_cst_3 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S8192x1024_S8192x1024_S8192x2048_d1 : Shape.Concatenates [S8192x1024, S8192x1024] S8192x2048 1
  concatenates_S1024x2048_S1024x2048_S1024x2048_S1024x2048_S4096x2048_d0 : Shape.Concatenates [S1024x2048, S1024x2048, S1024x2048, S1024x2048] S4096x2048 0
  concatenates_S1024_S1024_S1024_S1024_S4096_d0 : Shape.Concatenates [S1024, S1024, S1024, S1024] S4096 0
  transposes_S4096x2048_S2048x4096_1_0 : S4096x2048.Transposes [1, 0] S2048x4096
  bcast_S4096_S1x4096_1 : S4096.BroadcastsInDim S1x4096 (![1] : Fin 1 → Fin S1x4096.rank)
  bcast_S1x4096_S8192x4096_0_1 : S1x4096.BroadcastsInDim S8192x4096 (![0, 1] : Fin 2 → Fin S8192x4096.rank)
  slices_S8192x4096_S8192x1024_0_0 : S8192x4096.Slices ![0, 0] S8192x1024
  slices_S8192x4096_S8192x1024_0_1024 : S8192x4096.Slices ![0, 1024] S8192x1024
  slices_S8192x4096_S8192x1024_0_2048 : S8192x4096.Slices ![0, 2048] S8192x1024
  slices_S8192x4096_S8192x1024_0_3072 : S8192x4096.Slices ![0, 3072] S8192x1024
  bcast_S_S8192x1024 : S_.BroadcastsInDim S8192x1024 (![] : Fin 0 → Fin S8192x1024.rank)
  dot_S8192x2048_S2048x4096_S8192x4096_1_0_0_1_n_n_wf : DotDims.WF S8192x2048 S2048x4096 S8192x4096 [1] [0] [0] [1] [] []

variable [Facts₀]

def dot_S8192x2048_S2048x4096_S8192x4096_1_0_0_1_n_n : DotDims S8192x2048 S2048x4096 S8192x4096 where
  lhsContracting := [1]
  rhsContracting := [0]
  lhsNonContracting := [0]
  rhsNonContracting := [1]
  lhsBatch := []
  rhsBatch := []
  wf := dot_S8192x2048_S2048x4096_S8192x4096_1_0_0_1_n_n_wf

class Facts : Prop extends Facts₀ where

variable [Facts]
-- ==== Proof.EntryBits.lean ====
/-
  The arrays as the one grid region finds them, for the program `Kernel`.

  Before the region the host builds the fused weight matrix and bias: the four gate matrices stacked
  along rows, transposed to [2048, 4096] and narrowed to bf16; the four gate biases stacked and laid
  out as one row [1, 4096]. Those five lines write five fresh buffers and touch none of the eleven
  argument arrays, so every argument array enters the region with its launch contents.

  Also here: a window's block at a grid point read off those arrays, the fact that an input window's
  staging buffer holds exactly that block when the body starts (whether the pipeline fetched it at
  that point or kept it from the point before: the two resident operands are fetched once), and the
  passage from the pipelined run's postcondition to "the argument arrays end unchanged".
-/
import proofs.«140588_j57432302682693_2_alg».proof.Proof.Gen.Kernel.Launch
import proofs.«140588_j57432302682693_2_alg».proof.Proof.Gen.Kernel.Skeleton
import proofs.«140588_j57432302682693_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before the region -/

/-- Core `c`'s buffers when the region is entered: the launch memory after the five host lines. -/
abbrev atEntry (c : Dev nD) (b : Ref sig .tc) : Buf (Elt F) ((c : Thread nD τ).loc b) :=
  StableHlo.after (List.flatten [hostOps0]) (fun b => m (c, b)) b

/-- None of the five host lines allocates. -/
theorem hostLines_fresh : (hostOps0 : List (HloOp τ sig (Elt F))).Forall fun op => op.fresh = ∅ := by
  simp only [List.Forall]; repeat' constructor

/-- @main is: the five host lines, then the region. -/
theorem main_reaches_region (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact hostLines_fresh) main_chain

/-- A buffer that is none of the five the host lines write enters the region as launched. -/
theorem atEntry_of_unwritten (c : Dev nD) (b : Ref sig .tc)
    (h0 : b ≠ main_v0) (h1 : b ≠ main_v1) (h2 : b ≠ main_v2) (h3 : b ≠ main_v3) (h4 : b ≠ main_v4) :
    atEntry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

theorem atEntry_arg0 (c : Dev nD) : atEntry m c main_arg0 = m ((c : Thread nD τ).loc main_arg0) :=
  atEntry_of_unwritten m c _ (by decide) (by decide) (by decide) (by decide) (by decide)
theorem atEntry_arg1 (c : Dev nD) : atEntry m c main_arg1 = m ((c : Thread nD τ).loc main_arg1) :=
  atEntry_of_unwritten m c _ (by decide) (by decide) (by decide) (by decide) (by decide)
theorem atEntry_arg2 (c : Dev nD) : atEntry m c main_arg2 = m ((c : Thread nD τ).loc main_arg2) :=
  atEntry_of_unwritten m c _ (by decide) (by decide) (by decide) (by decide) (by decide)
theorem atEntry_arg3 (c : Dev nD) : atEntry m c main_arg3 = m ((c : Thread nD τ).loc main_arg3) :=
  atEntry_of_unwritten m c _ (by decide) (by decide) (by decide) (by decide) (by decide)
theorem atEntry_arg4 (c : Dev nD) : atEntry m c main_arg4 = m ((c : Thread nD τ).loc main_arg4) :=
  atEntry_of_unwritten m c _ (by decide) (by decide) (by decide) (by decide) (by decide)
theorem atEntry_arg5 (c : Dev nD) : atEntry m c main_arg5 = m ((c : Thread nD τ).loc main_arg5) :=
  atEntry_of_unwritten m c _ (by decide) (by decide) (by decide) (by decide) (by decide)
theorem atEntry_arg6 (c : Dev nD) : atEntry m c main_arg6 = m ((c : Thread nD τ).loc main_arg6) :=
  atEntry_of_unwritten m c _ (by decide) (by decide) (by decide) (by decide) (by decide)
theorem atEntry_arg7 (c : Dev nD) : atEntry m c main_arg7 = m ((c : Thread nD τ).loc main_arg7) :=
  atEntry_of_unwritten m c _ (by decide) (by decide) (by decide) (by decide) (by decide)
theorem atEntry_arg8 (c : Dev nD) : atEntry m c main_arg8 = m ((c : Thread nD τ).loc main_arg8) :=
  atEntry_of_unwritten m c _ (by decide) (by decide) (by decide) (by decide) (by decide)
theorem atEntry_arg9 (c : Dev nD) : atEntry m c main_arg9 = m ((c : Thread nD τ).loc main_arg9) :=
  atEntry_of_unwritten m c _ (by decide) (by decide) (by decide) (by decide) (by decide)
theorem atEntry_arg10 (c : Dev nD) : atEntry m c main_arg10 = m ((c : Thread nD τ).loc main_arg10) :=
  atEntry_of_unwritten m c _ (by decide) (by decide) (by decide) (by decide) (by decide)

/-! ## A window's block at a grid point -/

/-- Window `w`'s block at point `t`: 256 consecutive rows of a batch-major array (rows
    256·t … 256·t + 255), or the whole of a resident operand, read off the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block when the body starts, at every point,
    for any proof data over the region-entry arrays whose body leaves the block in place: fetched at
    that point, it is the block; not fetched (the resident weight matrix and bias row after the first
    point), the block index has not moved and the buffer still holds it. One statement per input window:
    hidden (0), inputs (1), cell state (2), weights (3), bias (4). -/
theorem input_held_0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem input_held_1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem input_held_2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem input_held_3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem input_held_4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## From the pipelined run to the frame -/

/-- A final state that satisfies the pipeline library's postcondition, for any proof data over the
    region-entry arrays, has the eleven argument arrays unchanged: the three batch-major arguments are
    input windows' arrays (an input window's array ends as it entered), the eight gate parameters are
    staged by no window (they end as the region found them), and the host lines wrote none of them. -/
theorem args_unchanged (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 1).trans (((dats 0 c).arrAt_in 1 rfl _).trans ((hA c 1).trans (atEntry_arg0 m c))),
   ((h c).1 0).trans (((dats 0 c).arrAt_in 0 rfl _).trans ((hA c 0).trans (atEntry_arg1 m c))),
   ((h c).1 2).trans (((dats 0 c).arrAt_in 2 rfl _).trans ((hA c 2).trans (atEntry_arg2 m c))),
   ((h c).2 main_arg3 (Pipeline.mem_restRefs_of main_arg3 (by decide) (by decide))).trans (atEntry_arg3 m c),
   ((h c).2 main_arg4 (Pipeline.mem_restRefs_of main_arg4 (by decide) (by decide))).trans (atEntry_arg4 m c),
   ((h c).2 main_arg5 (Pipeline.mem_restRefs_of main_arg5 (by decide) (by decide))).trans (atEntry_arg5 m c),
   ((h c).2 main_arg6 (Pipeline.mem_restRefs_of main_arg6 (by decide) (by decide))).trans (atEntry_arg6 m c),
   ((h c).2 main_arg7 (Pipeline.mem_restRefs_of main_arg7 (by decide) (by decide))).trans (atEntry_arg7 m c),
   ((h c).2 main_arg8 (Pipeline.mem_restRefs_of main_arg8 (by decide) (by decide))).trans (atEntry_arg8 m c),
   ((h c).2 main_arg9 (Pipeline.mem_restRefs_of main_arg9 (by decide) (by decide))).trans (atEntry_arg9 m c),
   ((h c).2 main_arg10 (Pipeline.mem_restRefs_of main_arg10 (by decide) (by decide))).trans (atEntry_arg10 m c)⟩

/-- So a run of @main that ends in that postcondition is a run that leaves the argument arrays unchanged. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_unchanged m dats hA r h c) h

end Cert.Kernel.Region

end
-- ==== Proof.TileBits.lean ====
/-
  What one grid point's body leaves in its two output tiles, for the program `Kernel`.

  The body reads a [256, 1024] tile of `hidden`, of `inputs` and of the cell state, the upper and
  lower halves (rows 0…1023 and 1024…2047) of the resident [2048, 4096] weight matrix and the
  resident [1, 4096] bias row; from them it computes the gate pre-activations (two matrix products
  added, plus the bias row on every row), splits them into four [256, 1024] column bands, and writes
  the new cell state  σ(f)·c + σ(i)·tanh(ĉ)  and the new hidden state  σ(o)·tanh(new cell state),
  each with ONE store over the whole output tile. So after the body each output tile is the value of
  its one store, a pure function of the five input buffers; the input buffers are as they were.
-/
import proofs.«140588_j57432302682693_2_alg».proof.Proof.Gen.Kernel.Launch
import proofs.«140588_j57432302682693_2_alg».proof.Proof.Gen.Kernel.Skeleton
import proofs.«140588_j57432302682693_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole [256, 1024] tile. -/
abbrev wholeTile : Rect S256x1024 := Rect.unit (s := S256x1024) ![0, 0] S256x1024.size inb_S256x1024_S256x1024_0_0
/-- Rows 0…1023 of the weight matrix: the rows that meet `hidden`. -/
abbrev upperRows : Rect S2048x4096 := Rect.unit (s := S2048x4096) ![0, 0] S1024x4096.size inb_S2048x4096_S1024x4096_0_0
/-- Rows 1024…2047 of the weight matrix: the rows that meet `inputs`. -/
abbrev lowerRows : Rect S2048x4096 := Rect.unit (s := S2048x4096) ![1024, 0] S1024x4096.size inb_S2048x4096_S1024x4096_1024_0
/-- The whole bias row. -/
abbrev biasRow : Rect S1x4096 := Rect.unit (s := S1x4096) ![0, 0] S1x4096.size inb_S1x4096_S1x4096_0_0

/-! ## The output tiles after the body -/

/-- The new hidden state's tile, from the five input buffers: its one store. -/
def hiddenTile (xh : Vec F S256x1024 .f32) (xi : Vec F S256x1024 .f32) (xc : Vec F S256x1024 .f32)
    (xw : Vec F S2048x4096 .bf16) (xb : Vec F S1x4096 .f32) : Vec F S256x1024 .f32 :=
  View.canon [⟨wholeTile, k0_pay3 (View.ld xh wholeTile) (View.ld xi wholeTile) (View.ld xw upperRows) (View.ld xw lowerRows) (View.ld xb biasRow) (View.ld xc wholeTile)⟩]

/-- The new cell state's tile, from the five input buffers: its one store. -/
def cellTile (xh : Vec F S256x1024 .f32) (xi : Vec F S256x1024 .f32) (xc : Vec F S256x1024 .f32)
    (xw : Vec F S2048x4096 .bf16) (xb : Vec F S1x4096 .f32) : Vec F S256x1024 .f32 :=
  View.canon [⟨wholeTile, k0_pay2 (View.ld xh wholeTile) (View.ld xi wholeTile) (View.ld xw upperRows) (View.ld xw lowerRows) (View.ld xb biasRow) (View.ld xc wholeTile)⟩]

/-- One store over the whole tile covers the tile. -/
theorem tile_covered (p0 : Vec F S256x1024 .f32) (y : S256x1024.Idx) :
    ∃ pc ∈ ([⟨wholeTile, p0⟩] : List (View.Piece (Elt F) S256x1024 .f32)), y ∈ pc.1.set :=
  View.cover_of_tiled [⟨wholeTile, p0⟩] S256x1024.size (by rfl) y

/-! ## The body's triple -/

set_option maxHeartbeats 1000000 in
/-- The body on whole staging buffers — the five inputs' at known contents, the two outputs' at
    anything — runs to a continuation that holds the inputs' as they were and the outputs' at
    `hiddenTile` and `cellTile` of the inputs'. -/
theorem body_runs (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (xh : Vec F S256x1024 .f32) (xi : Vec F S256x1024 .f32) (xc : Vec F S256x1024 .f32)
    (xw : Vec F S2048x4096 .bf16) (xb : Vec F S1x4096 .f32) (K : PUnit → sProp 𝕄) :
    iprop(owns (c : Thread nD τ) arg1 fullShare xh ∗ owns (c : Thread nD τ) arg2 fullShare xi ∗ owns (c : Thread nD τ) arg3 fullShare xc
        ∗ owns (c : Thread nD τ) arg4 fullShare xw ∗ owns (c : Thread nD τ) arg5 fullShare xb
        ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xi ∗ owns (c : Thread nD τ) arg3 fullShare xc
            ∗ owns (c : Thread nD τ) arg4 fullShare xw ∗ owns (c : Thread nD τ) arg5 fullShare xb
            ∗ owns (c : Thread nD τ) arg6 fullShare (hiddenTile xh xi xc xw xb)
            ∗ owns (c : Thread nD τ) arg7 fullShare (cellTile xh xi xc xw xb)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_covered _)
  iexists _; isplitr
  swap; · iexact H7
  ipureintro
  exact View.read_writes_eq_canon _ _ _ (tile_covered _)

end Cert.Kernel.Region

end
-- ==== Proof.RunBits.lean ====
/-
  The pipelined run of `Kernel` and its frame.

  The grid has 32 points; point `t` works on rows 256·t … 256·t + 255 of the batch. The proof data
  says what every staging buffer holds after the body at each point: an input window's buffer still
  its block, the two output windows' buffers the new hidden-state tile and the new cell-state tile
  computed from the five input blocks at that point. The body obligation at a generic point is then
  the body's triple at those blocks; the pipeline library turns it into a run of @main in which
  every weakly fair execution terminates without a fault, each window's array ends at what the
  write-backs made of it, and every other buffer ends as the region found it. Read at the argument
  arrays this is the frame.
-/
import proofs.«140588_j57432302682693_2_alg».proof.Proof.EntryBits
import proofs.«140588_j57432302682693_2_alg».proof.Proof.TileBits

set_option maxRecDepth 16384

noncomputable section

namespace Cert.Kernel.Region

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer
    at its block, the new hidden state's and the new cell state's at their tiles of the input blocks;
    the scoped rest and the generator register untouched; nothing owed; full shares. -/
def pipelineData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hiddenTile (blockAt m c 0 t) (blockAt m c 1 t) (blockAt m c 2 t) (blockAt m c 3 t) (blockAt m c 4 t)
    | ⟨6, _⟩ => cellTile (blockAt m c 0 t) (blockAt m c 1 t) (blockAt m c 2 t) (blockAt m c 3 t) (blockAt m c 4 t)
  Φ _ := Pipeline.ΦA spec0 c
  q _ := fullShare
  owed _ := 0

/-- Its arrays are the region-entry contents. -/
theorem arrays_atEntry (c : Dev nD) (w : Fin cfg0.W) : (pipelineData m 0 c).A w = atEntry m c (Pipeline.arrRef spec0 w) := by
  dsimp only [pipelineData]

theorem after_0 (c : Dev nD) (t : Fin cfg0.N) : (pipelineData m 0 c).after 0 t = blockAt m c 0 t := by dsimp only [pipelineData]
theorem after_1 (c : Dev nD) (t : Fin cfg0.N) : (pipelineData m 0 c).after 1 t = blockAt m c 1 t := by dsimp only [pipelineData]
theorem after_2 (c : Dev nD) (t : Fin cfg0.N) : (pipelineData m 0 c).after 2 t = blockAt m c 2 t := by dsimp only [pipelineData]
theorem after_3 (c : Dev nD) (t : Fin cfg0.N) : (pipelineData m 0 c).after 3 t = blockAt m c 3 t := by dsimp only [pipelineData]
theorem after_4 (c : Dev nD) (t : Fin cfg0.N) : (pipelineData m 0 c).after 4 t = blockAt m c 4 t := by dsimp only [pipelineData]
/-- The new hidden state's tile at point `t`. -/
theorem after_5 (c : Dev nD) (t : Fin cfg0.N) : (pipelineData m 0 c).after 5 t
    = hiddenTile (blockAt m c 0 t) (blockAt m c 1 t) (blockAt m c 2 t) (blockAt m c 3 t) (blockAt m c 4 t) := by dsimp only [pipelineData]
/-- The new cell state's tile at point `t`. -/
theorem after_6 (c : Dev nD) (t : Fin cfg0.N) : (pipelineData m 0 c).after 6 t
    = cellTile (blockAt m c 0 t) (blockAt m c 1 t) (blockAt m c 2 t) (blockAt m c 3 t) (blockAt m c 4 t) := by dsimp only [pipelineData]

/-- Each input's current staging buffer holds its block when the body starts. -/
theorem before_0 (c : Dev nD) (t : Fin cfg0.N) (d) : (pipelineData m 0 c).before 0 t d = blockAt m c 0 t :=
  input_held_0 m (pipelineData m 0 c) (arrays_atEntry m c 0) (after_0 m c) t d
theorem before_1 (c : Dev nD) (t : Fin cfg0.N) (d) : (pipelineData m 0 c).before 1 t d = blockAt m c 1 t :=
  input_held_1 m (pipelineData m 0 c) (arrays_atEntry m c 1) (after_1 m c) t d
theorem before_2 (c : Dev nD) (t : Fin cfg0.N) (d) : (pipelineData m 0 c).before 2 t d = blockAt m c 2 t :=
  input_held_2 m (pipelineData m 0 c) (arrays_atEntry m c 2) (after_2 m c) t d
theorem before_3 (c : Dev nD) (t : Fin cfg0.N) (d) : (pipelineData m 0 c).before 3 t d = blockAt m c 3 t :=
  input_held_3 m (pipelineData m 0 c) (arrays_atEntry m c 3) (after_3 m c) t d
theorem before_4 (c : Dev nD) (t : Fin cfg0.N) (d) : (pipelineData m 0 c).before 4 t d = blockAt m c 4 t :=
  input_held_4 m (pipelineData m 0 c) (arrays_atEntry m c 4) (after_4 m c) t d

/-! ## The body obligation, at a generic point -/

/-- What the body is called with at point `t`, the windows one by one, -/
def bodyPre (c : Dev nD) (t : Fin cfg0.N) : sProp 𝕄 :=
  iprop((pipelineData m 0 c).Φ t.castSucc ∗ (pipelineData m 0 c).owesAt () t.castSucc
    ∗ (∃ d, owns (c : Thread nD τ) (st0_0 t) fullShare ((pipelineData m 0 c).before 0 t d))
    ∗ (∃ d, owns (c : Thread nD τ) (st0_1 t) fullShare ((pipelineData m 0 c).before 1 t d))
    ∗ (∃ d, owns (c : Thread nD τ) (st0_2 t) fullShare ((pipelineData m 0 c).before 2 t d))
    ∗ (∃ d, owns (c : Thread nD τ) (st0_3 t) fullShare ((pipelineData m 0 c).before 3 t d))
    ∗ (∃ d, owns (c : Thread nD τ) (st0_4 t) fullShare ((pipelineData m 0 c).before 4 t d))
    ∗ (∃ d, owns (c : Thread nD τ) (st0_5 t) fullShare ((pipelineData m 0 c).before 5 t d))
    ∗ (∃ d, owns (c : Thread nD τ) (st0_6 t) fullShare ((pipelineData m 0 c).before 6 t d)))

/-- and what it returns. -/
def bodyPost (c : Dev nD) (t : Fin cfg0.N) : sProp 𝕄 :=
  iprop((pipelineData m 0 c).Φ t.succ ∗ (pipelineData m 0 c).owesAt () t.succ
    ∗ owns (c : Thread nD τ) (st0_0 t) fullShare ((pipelineData m 0 c).after 0 t)
    ∗ owns (c : Thread nD τ) (st0_1 t) fullShare ((pipelineData m 0 c).after 1 t)
    ∗ owns (c : Thread nD τ) (st0_2 t) fullShare ((pipelineData m 0 c).after 2 t)
    ∗ owns (c : Thread nD τ) (st0_3 t) fullShare ((pipelineData m 0 c).after 3 t)
    ∗ owns (c : Thread nD τ) (st0_4 t) fullShare ((pipelineData m 0 c).after 4 t)
    ∗ owns (c : Thread nD τ) (st0_5 t) fullShare ((pipelineData m 0 c).after 5 t)
    ∗ owns (c : Thread nD τ) (st0_6 t) fullShare ((pipelineData m 0 c).after 6 t))

/-- The body at any point: the inputs' buffers hold their blocks, so the body's triple applies; the
    invariant and the core's dues pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (pipelineData m 0 c).Φ t.succ = (pipelineData m 0 c).Φ t.castSucc from rfl,
    show (pipelineData m 0 c).owesAt () t.succ = (pipelineData m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ _ _ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation (c : Dev nD) : BodyObligation (pipelineData (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates without a
    fault, and in every final state each window's array is what the library computes from the proof
    data (the two results: the write-backs of the 32 tiles) and every other unscoped buffer is as the
    region found it. -/
theorem run_main : θ_run defs (onTc (τ := τ) (main (F := F))) (s₀ m ρ) (Pipeline.FramePost cfgs (pipelineData m) 0 (atEntry m)) :=
  Pipeline.θ_run_frame cfgs (pipelineData m) (0 : Fin 1) launch0 defs₀ Variants.none m ρ main
    (hbody := fun c => (body_obligation m c).loose) (hshare := fun c => (pipelineData m 0 c).share_full fun _ => rfl)
    (howed := fun _ _ => rfl) (V := atEntry m) (hmain := main_reaches_region m Variants.none) (hA := arrays_atEntry m) (hΦ := fun _ _ => rfl)

/-- The frame: @main runs to the end, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_run m ρ (pipelineData m) (arrays_atEntry m) (run_main m ρ)

end Cert.Kernel.Region

end
-- ==== Proof.EntryIdeal.lean ====
/-
  The arrays as the one grid region finds them, for the program `KernelIdeal`.

  Before the region the host builds the fused weight matrix and bias: the four gate matrices stacked
  along rows, transposed to [2048, 4096] and narrowed to bf16; the four gate biases stacked and laid
  out as one row [1, 4096]. Those five lines write five fresh buffers and touch none of the eleven
  argument arrays, so every argument array enters the region with its launch contents.

  Also here: a window's block at a grid point read off those arrays, the fact that an input window's
  staging buffer holds exactly that block when the body starts (whether the pipeline fetched it at
  that point or kept it from the point before: the two resident operands are fetched once), and the
  passage from the pipelined run's postcondition to "the argument arrays end unchanged".
-/
import proofs.«140588_j57432302682693_2_alg».proof.Proof.Gen.KernelIdeal.Launch
import proofs.«140588_j57432302682693_2_alg».proof.Proof.Gen.KernelIdeal.Skeleton
import proofs.«140588_j57432302682693_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

variable (m : (ℓ : Loc nD τ sig) → Buf (Elt F) ℓ) (ρ : Dev nD → PrngReg)

/-! ## The host lines before the region -/

/-- Core `c`'s buffers when the region is entered: the launch memory after the five host lines. -/
abbrev atEntry (c : Dev nD) (b : Ref sig .tc) : Buf (Elt F) ((c : Thread nD τ).loc b) :=
  StableHlo.after (List.flatten [hostOps0]) (fun b => m (c, b)) b

/-- None of the five host lines allocates. -/
theorem hostLines_fresh : (hostOps0 : List (HloOp τ sig (Elt F))).Forall fun op => op.fresh = ∅ := by
  simp only [List.Forall]; repeat' constructor

/-- @main is: the five host lines, then the region. -/
theorem main_reaches_region (𝒱₀ : Variants) :
    Pipeline.HMain (Ix := Unit) (Name := ℕ) (U := UR sig nD τ) (Lvl := ℕ) cfgs 0 defs₀ 𝒱₀ m (main (F := F)) (atEntry m) :=
  Pipeline.hmain_prefixes cfgs 0 defs₀ 𝒱₀ m main [hostOps0] (by simp only [List.Forall]; exact hostOps0_sub)
    (by simp only [List.Forall]; exact hostLines_fresh) main_chain

/-- A buffer that is none of the five the host lines write enters the region as launched. -/
theorem atEntry_of_unwritten (c : Dev nD) (b : Ref sig .tc)
    (h0 : b ≠ main_v0) (h1 : b ≠ main_v1) (h2 : b ≠ main_v2) (h3 : b ≠ main_v3) (h4 : b ≠ main_v4) :
    atEntry m c b = m ((c : Thread nD τ).loc b) :=
  StableHlo.after_of_forall_not_mem (b := Proc.devRef .tc b) _ _ (List.forall_iff_forall_mem.mp (by
    simp only [hostOps0, List.flatten_cons, List.flatten_nil, List.append_nil, List.cons_append,
      List.nil_append, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4⟩))

theorem atEntry_arg0 (c : Dev nD) : atEntry m c main_arg0 = m ((c : Thread nD τ).loc main_arg0) :=
  atEntry_of_unwritten m c _ (by decide) (by decide) (by decide) (by decide) (by decide)
theorem atEntry_arg1 (c : Dev nD) : atEntry m c main_arg1 = m ((c : Thread nD τ).loc main_arg1) :=
  atEntry_of_unwritten m c _ (by decide) (by decide) (by decide) (by decide) (by decide)
theorem atEntry_arg2 (c : Dev nD) : atEntry m c main_arg2 = m ((c : Thread nD τ).loc main_arg2) :=
  atEntry_of_unwritten m c _ (by decide) (by decide) (by decide) (by decide) (by decide)
theorem atEntry_arg3 (c : Dev nD) : atEntry m c main_arg3 = m ((c : Thread nD τ).loc main_arg3) :=
  atEntry_of_unwritten m c _ (by decide) (by decide) (by decide) (by decide) (by decide)
theorem atEntry_arg4 (c : Dev nD) : atEntry m c main_arg4 = m ((c : Thread nD τ).loc main_arg4) :=
  atEntry_of_unwritten m c _ (by decide) (by decide) (by decide) (by decide) (by decide)
theorem atEntry_arg5 (c : Dev nD) : atEntry m c main_arg5 = m ((c : Thread nD τ).loc main_arg5) :=
  atEntry_of_unwritten m c _ (by decide) (by decide) (by decide) (by decide) (by decide)
theorem atEntry_arg6 (c : Dev nD) : atEntry m c main_arg6 = m ((c : Thread nD τ).loc main_arg6) :=
  atEntry_of_unwritten m c _ (by decide) (by decide) (by decide) (by decide) (by decide)
theorem atEntry_arg7 (c : Dev nD) : atEntry m c main_arg7 = m ((c : Thread nD τ).loc main_arg7) :=
  atEntry_of_unwritten m c _ (by decide) (by decide) (by decide) (by decide) (by decide)
theorem atEntry_arg8 (c : Dev nD) : atEntry m c main_arg8 = m ((c : Thread nD τ).loc main_arg8) :=
  atEntry_of_unwritten m c _ (by decide) (by decide) (by decide) (by decide) (by decide)
theorem atEntry_arg9 (c : Dev nD) : atEntry m c main_arg9 = m ((c : Thread nD τ).loc main_arg9) :=
  atEntry_of_unwritten m c _ (by decide) (by decide) (by decide) (by decide) (by decide)
theorem atEntry_arg10 (c : Dev nD) : atEntry m c main_arg10 = m ((c : Thread nD τ).loc main_arg10) :=
  atEntry_of_unwritten m c _ (by decide) (by decide) (by decide) (by decide) (by decide)

/-! ## A window's block at a grid point -/

/-- Window `w`'s block at point `t`: 256 consecutive rows of a batch-major array (rows
    256·t … 256·t + 255), or the whole of a resident operand, read off the array as the region finds it. -/
def blockAt (c : Dev nD) (w : Fin cfg0.W) (t : Fin cfg0.N) : ((cfg0.win w).xblock (cfg0.grid.coords t)).Idx → Elt F (cfg0.win w).elt :=
  ((cfg0.win w).blk t).view.read (Elt F) (atEntry m c (Pipeline.arrRef spec0 w))

/-- An input window's current staging buffer holds its block when the body starts, at every point,
    for any proof data over the region-entry arrays whose body leaves the block in place: fetched at
    that point, it is the block; not fetched (the resident weight matrix and bias row after the first
    point), the block index has not moved and the buffer still holds it. One statement per input window:
    hidden (0), inputs (1), cell state (2), weights (3), bias (4). -/
theorem input_held_0 {c : Dev nD} (dat : Dat τ (Elt F) Unit ℕ (UR sig nD τ) ℕ cfg0 c) (hA : dat.A 0 = atEntry m c (Pipeline.arrRef spec0 0))
    (hafter : ∀ t, dat.after 0 t = blockAt m c 0 t) (t : Fin cfg0.N) (d) : dat.before 0 t d = blockAt m c 0 t :=
  (dat.before_in_eq_fetched 0 rfl (fun _ => rfl) (fun _ _ _ => rfl) (fun t => by rw [hafter]; unfold Dat.blockOf blockAt; rw [hA]; try rfl) t d).trans
    (by unfold Dat.fetched Dat.blockOf blockAt; rw [hA]; try rfl)
theorem input_held_1 {c : Dev nD} (dat : Dat τ (Elt F) Unit ℕ (UR sig nD τ) ℕ cfg0 c) (hA : dat.A 1 = atEntry m c (Pipeline.arrRef spec0 1))
    (hafter : ∀ t, dat.after 1 t = blockAt m c 1 t) (t : Fin cfg0.N) (d) : dat.before 1 t d = blockAt m c 1 t :=
  (dat.before_in_eq_fetched 1 rfl (fun _ => rfl) (fun _ _ _ => rfl) (fun t => by rw [hafter]; unfold Dat.blockOf blockAt; rw [hA]; try rfl) t d).trans
    (by unfold Dat.fetched Dat.blockOf blockAt; rw [hA]; try rfl)
theorem input_held_2 {c : Dev nD} (dat : Dat τ (Elt F) Unit ℕ (UR sig nD τ) ℕ cfg0 c) (hA : dat.A 2 = atEntry m c (Pipeline.arrRef spec0 2))
    (hafter : ∀ t, dat.after 2 t = blockAt m c 2 t) (t : Fin cfg0.N) (d) : dat.before 2 t d = blockAt m c 2 t :=
  (dat.before_in_eq_fetched 2 rfl (fun _ => rfl) (fun _ _ _ => rfl) (fun t => by rw [hafter]; unfold Dat.blockOf blockAt; rw [hA]; try rfl) t d).trans
    (by unfold Dat.fetched Dat.blockOf blockAt; rw [hA]; try rfl)
theorem input_held_3 {c : Dev nD} (dat : Dat τ (Elt F) Unit ℕ (UR sig nD τ) ℕ cfg0 c) (hA : dat.A 3 = atEntry m c (Pipeline.arrRef spec0 3))
    (hafter : ∀ t, dat.after 3 t = blockAt m c 3 t) (t : Fin cfg0.N) (d) : dat.before 3 t d = blockAt m c 3 t :=
  (dat.before_in_eq_fetched 3 rfl (fun _ => rfl) (fun _ _ _ => rfl) (fun t => by rw [hafter]; unfold Dat.blockOf blockAt; rw [hA]; try rfl) t d).trans
    (by unfold Dat.fetched Dat.blockOf blockAt; rw [hA]; try rfl)
theorem input_held_4 {c : Dev nD} (dat : Dat τ (Elt F) Unit ℕ (UR sig nD τ) ℕ cfg0 c) (hA : dat.A 4 = atEntry m c (Pipeline.arrRef spec0 4))
    (hafter : ∀ t, dat.after 4 t = blockAt m c 4 t) (t : Fin cfg0.N) (d) : dat.before 4 t d = blockAt m c 4 t :=
  (dat.before_in_eq_fetched 4 rfl (fun _ => rfl) (fun _ _ _ => rfl) (fun t => by rw [hafter]; unfold Dat.blockOf blockAt; rw [hA]; try rfl) t d).trans
    (by unfold Dat.fetched Dat.blockOf blockAt; rw [hA]; try rfl)

/-! ## From the pipelined run to the frame -/

/-- A final state that satisfies the pipeline library's postcondition, for any proof data over the
    region-entry arrays, has the eleven argument arrays unchanged: the three batch-major arguments are
    input windows' arrays (an input window's array ends as it entered), the eight gate parameters are
    staged by no window (they end as the region found them), and the host lines wrote none of them. -/
theorem args_unchanged (dats : (p : Fin 1) → (c : Dev nD) → Dat τ (Elt F) Unit ℕ (UR sig nD τ) ℕ (cfgs p) c)
    (hA : ∀ c w, (dats 0 c).A w = atEntry m c (Pipeline.arrRef spec0 w))
    (r : PUnit × MemSt nD τ sig (Elt F)) (h : Pipeline.FramePost cfgs dats 0 (atEntry m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  ⟨((h c).1 1).trans (((dats 0 c).arrAt_in 1 rfl _).trans ((hA c 1).trans (atEntry_arg0 m c))),
   ((h c).1 0).trans (((dats 0 c).arrAt_in 0 rfl _).trans ((hA c 0).trans (atEntry_arg1 m c))),
   ((h c).1 2).trans (((dats 0 c).arrAt_in 2 rfl _).trans ((hA c 2).trans (atEntry_arg2 m c))),
   ((h c).2 main_arg3 (Pipeline.mem_restRefs_of main_arg3 (by decide) (by decide))).trans (atEntry_arg3 m c),
   ((h c).2 main_arg4 (Pipeline.mem_restRefs_of main_arg4 (by decide) (by decide))).trans (atEntry_arg4 m c),
   ((h c).2 main_arg5 (Pipeline.mem_restRefs_of main_arg5 (by decide) (by decide))).trans (atEntry_arg5 m c),
   ((h c).2 main_arg6 (Pipeline.mem_restRefs_of main_arg6 (by decide) (by decide))).trans (atEntry_arg6 m c),
   ((h c).2 main_arg7 (Pipeline.mem_restRefs_of main_arg7 (by decide) (by decide))).trans (atEntry_arg7 m c),
   ((h c).2 main_arg8 (Pipeline.mem_restRefs_of main_arg8 (by decide) (by decide))).trans (atEntry_arg8 m c),
   ((h c).2 main_arg9 (Pipeline.mem_restRefs_of main_arg9 (by decide) (by decide))).trans (atEntry_arg9 m c),
   ((h c).2 main_arg10 (Pipeline.mem_restRefs_of main_arg10 (by decide) (by decide))).trans (atEntry_arg10 m c)⟩

/-- So a run of @main that ends in that postcondition is a run that leaves the argument arrays unchanged. -/
theorem frame_of_run (dats : (p : Fin 1) → (c : Dev nD) → Dat τ (Elt F) Unit ℕ (UR sig nD τ) ℕ (cfgs p) c)
    (hA : ∀ c w, (dats 0 c).A w = atEntry m c (Pipeline.arrRef spec0 w))
    (h : θ_run defs (onTc (τ := τ) (main (F := F))) (s₀ m ρ) (Pipeline.FramePost cfgs dats 0 (atEntry m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun r h c => args_unchanged m dats hA r h c) h

end Cert.KernelIdeal.Region

end
-- ==== Proof.TileIdeal.lean ====
/-
  What one grid point's body leaves in its two output tiles, for the program `KernelIdeal`.

  The body reads a [256, 1024] tile of `hidden`, of `inputs` and of the cell state, the upper and
  lower halves (rows 0…1023 and 1024…2047) of the resident [2048, 4096] weight matrix and the
  resident [1, 4096] bias row; from them it computes the gate pre-activations (two matrix products
  added, plus the bias row on every row), splits them into four [256, 1024] column bands, and writes
  the new cell state  σ(f)·c + σ(i)·tanh(ĉ)  and the new hidden state  σ(o)·tanh(new cell state),
  each with ONE store over the whole output tile. So after the body each output tile is the value of
  its one store, a pure function of the five input buffers; the input buffers are as they were.
-/
import proofs.«140588_j57432302682693_2_alg».proof.Proof.Gen.KernelIdeal.Launch
import proofs.«140588_j57432302682693_2_alg».proof.Proof.Gen.KernelIdeal.Skeleton
import proofs.«140588_j57432302682693_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The rectangles the body reads and writes -/

/-- A whole [256, 1024] tile. -/
abbrev wholeTile : Rect S256x1024 := Rect.unit (s := S256x1024) ![0, 0] S256x1024.size inb_S256x1024_S256x1024_0_0
/-- Rows 0…1023 of the weight matrix: the rows that meet `hidden`. -/
abbrev upperRows : Rect S2048x4096 := Rect.unit (s := S2048x4096) ![0, 0] S1024x4096.size inb_S2048x4096_S1024x4096_0_0
/-- Rows 1024…2047 of the weight matrix: the rows that meet `inputs`. -/
abbrev lowerRows : Rect S2048x4096 := Rect.unit (s := S2048x4096) ![1024, 0] S1024x4096.size inb_S2048x4096_S1024x4096_1024_0
/-- The whole bias row. -/
abbrev biasRow : Rect S1x4096 := Rect.unit (s := S1x4096) ![0, 0] S1x4096.size inb_S1x4096_S1x4096_0_0

/-! ## The output tiles after the body -/

/-- The new hidden state's tile, from the five input buffers: its one store. -/
def hiddenTile (xh : Vec F S256x1024 .f32) (xi : Vec F S256x1024 .f32) (xc : Vec F S256x1024 .f32)
    (xw : Vec F S2048x4096 .bf16) (xb : Vec F S1x4096 .f32) : Vec F S256x1024 .f32 :=
  View.canon [⟨wholeTile, k0_pay3 (View.ld xh wholeTile) (View.ld xi wholeTile) (View.ld xw upperRows) (View.ld xw lowerRows) (View.ld xb biasRow) (View.ld xc wholeTile)⟩]

/-- The new cell state's tile, from the five input buffers: its one store. -/
def cellTile (xh : Vec F S256x1024 .f32) (xi : Vec F S256x1024 .f32) (xc : Vec F S256x1024 .f32)
    (xw : Vec F S2048x4096 .bf16) (xb : Vec F S1x4096 .f32) : Vec F S256x1024 .f32 :=
  View.canon [⟨wholeTile, k0_pay2 (View.ld xh wholeTile) (View.ld xi wholeTile) (View.ld xw upperRows) (View.ld xw lowerRows) (View.ld xb biasRow) (View.ld xc wholeTile)⟩]

/-- One store over the whole tile covers the tile. -/
theorem tile_covered (p0 : Vec F S256x1024 .f32) (y : S256x1024.Idx) :
    ∃ pc ∈ ([⟨wholeTile, p0⟩] : List (View.Piece (Elt F) S256x1024 .f32)), y ∈ pc.1.set :=
  View.cover_of_tiled [⟨wholeTile, p0⟩] S256x1024.size (by rfl) y

/-! ## The body's triple -/

set_option maxHeartbeats 1000000 in
/-- The body on whole staging buffers — the five inputs' at known contents, the two outputs' at
    anything — runs to a continuation that holds the inputs' as they were and the outputs' at
    `hiddenTile` and `cellTile` of the inputs'. -/
theorem body_runs (c : Dev nD) (E : Set ℕ) (i : grid0.Coords)
    (arg1 : Memref sig .tc .vmem S256x1024 .f32) (harg1 : arg1.IsWhole) (arg2 : Memref sig .tc .vmem S256x1024 .f32) (harg2 : arg2.IsWhole)
    (arg3 : Memref sig .tc .vmem S256x1024 .f32) (harg3 : arg3.IsWhole) (arg4 : Memref sig .tc .vmem S2048x4096 .bf16) (harg4 : arg4.IsWhole)
    (arg5 : Memref sig .tc .vmem S1x4096 .f32) (harg5 : arg5.IsWhole) (arg6 : Memref sig .tc .vmem S256x1024 .f32) (harg6 : arg6.IsWhole)
    (arg7 : Memref sig .tc .vmem S256x1024 .f32) (harg7 : arg7.IsWhole)
    (xh : Vec F S256x1024 .f32) (xi : Vec F S256x1024 .f32) (xc : Vec F S256x1024 .f32)
    (xw : Vec F S2048x4096 .bf16) (xb : Vec F S1x4096 .f32) (K : PUnit → sProp 𝕄) :
    iprop(owns (c : Thread nD τ) arg1 fullShare xh ∗ owns (c : Thread nD τ) arg2 fullShare xi ∗ owns (c : Thread nD τ) arg3 fullShare xc
        ∗ owns (c : Thread nD τ) arg4 fullShare xw ∗ owns (c : Thread nD τ) arg5 fullShare xb
        ∗ (∃ d, owns (c : Thread nD τ) arg6 fullShare d) ∗ (∃ d, owns (c : Thread nD τ) arg7 fullShare d)
        ∗ (iprop(owns (c : Thread nD τ) arg1 fullShare xh ∗ owns (c : Thread nD τ) arg2 fullShare xi ∗ owns (c : Thread nD τ) arg3 fullShare xc
            ∗ owns (c : Thread nD τ) arg4 fullShare xw ∗ owns (c : Thread nD τ) arg5 fullShare xb
            ∗ owns (c : Thread nD τ) arg6 fullShare (hiddenTile xh xi xc xw xb)
            ∗ owns (c : Thread nD τ) arg7 fullShare (cellTile xh xi xc xw xb)) -∗ K ⟨⟩))
      ⊢ wp frame (wpE (defs₀ (F := F)) Variants.none c none) E (cc0__lstm_kernel i arg1 harg1 arg2 harg2 arg3 harg3 arg4 harg4 arg5 harg5 arg6 harg6 arg7 harg7) K := by
  simp only [cc0__lstm_kernel_eq_skeleton]; unfold cc0__lstm_kernel_skel
  unfold owns
  iintro ⟨⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  subst hf1; subst hf2; subst hf3; subst hf4; subst hf5
  sl_exec
  sl_step
  iapply Hk
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    exact View.read_writes_eq_canon _ _ _ (tile_covered _)
  iexists _; isplitr
  swap; · iexact H7
  ipureintro
  exact View.read_writes_eq_canon _ _ _ (tile_covered _)

end Cert.KernelIdeal.Region

end
-- ==== Proof.RunIdeal.lean ====
/-
  The pipelined run of `KernelIdeal` and its frame.

  The grid has 32 points; point `t` works on rows 256·t … 256·t + 255 of the batch. The proof data
  says what every staging buffer holds after the body at each point: an input window's buffer still
  its block, the two output windows' buffers the new hidden-state tile and the new cell-state tile
  computed from the five input blocks at that point. The body obligation at a generic point is then
  the body's triple at those blocks; the pipeline library turns it into a run of @main in which
  every weakly fair execution terminates without a fault, each window's array ends at what the
  write-backs made of it, and every other buffer ends as the region found it. Read at the argument
  arrays this is the frame.
-/
import proofs.«140588_j57432302682693_2_alg».proof.Proof.EntryIdeal
import proofs.«140588_j57432302682693_2_alg».proof.Proof.TileIdeal

set_option maxRecDepth 16384

noncomputable section

namespace Cert.KernelIdeal.Region

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- On core `c`: the arrays as the region finds them; after the body at point `t` each input's buffer
    at its block, the new hidden state's and the new cell state's at their tiles of the input blocks;
    the scoped rest and the generator register untouched; nothing owed; full shares. -/
def pipelineData (_ : Fin 1) (c : Dev nD) : Dat τ (Elt F) Unit ℕ (UR sig nD τ) ℕ cfg0 c where
  A w := atEntry m c (Pipeline.arrRef spec0 w)
  after w t := match w with
    | ⟨0, _⟩ => blockAt m c 0 t
    | ⟨1, _⟩ => blockAt m c 1 t
    | ⟨2, _⟩ => blockAt m c 2 t
    | ⟨3, _⟩ => blockAt m c 3 t
    | ⟨4, _⟩ => blockAt m c 4 t
    | ⟨5, _⟩ => hiddenTile (blockAt m c 0 t) (blockAt m c 1 t) (blockAt m c 2 t) (blockAt m c 3 t) (blockAt m c 4 t)
    | ⟨6, _⟩ => cellTile (blockAt m c 0 t) (blockAt m c 1 t) (blockAt m c 2 t) (blockAt m c 3 t) (blockAt m c 4 t)
  Φ _ := Pipeline.ΦA spec0 c
  q _ := fullShare
  owed _ := 0

/-- Its arrays are the region-entry contents. -/
theorem arrays_atEntry (c : Dev nD) (w : Fin cfg0.W) : (pipelineData m 0 c).A w = atEntry m c (Pipeline.arrRef spec0 w) := by
  dsimp only [pipelineData]

theorem after_0 (c : Dev nD) (t : Fin cfg0.N) : (pipelineData m 0 c).after 0 t = blockAt m c 0 t := by dsimp only [pipelineData]
theorem after_1 (c : Dev nD) (t : Fin cfg0.N) : (pipelineData m 0 c).after 1 t = blockAt m c 1 t := by dsimp only [pipelineData]
theorem after_2 (c : Dev nD) (t : Fin cfg0.N) : (pipelineData m 0 c).after 2 t = blockAt m c 2 t := by dsimp only [pipelineData]
theorem after_3 (c : Dev nD) (t : Fin cfg0.N) : (pipelineData m 0 c).after 3 t = blockAt m c 3 t := by dsimp only [pipelineData]
theorem after_4 (c : Dev nD) (t : Fin cfg0.N) : (pipelineData m 0 c).after 4 t = blockAt m c 4 t := by dsimp only [pipelineData]
/-- The new hidden state's tile at point `t`. -/
theorem after_5 (c : Dev nD) (t : Fin cfg0.N) : (pipelineData m 0 c).after 5 t
    = hiddenTile (blockAt m c 0 t) (blockAt m c 1 t) (blockAt m c 2 t) (blockAt m c 3 t) (blockAt m c 4 t) := by dsimp only [pipelineData]
/-- The new cell state's tile at point `t`. -/
theorem after_6 (c : Dev nD) (t : Fin cfg0.N) : (pipelineData m 0 c).after 6 t
    = cellTile (blockAt m c 0 t) (blockAt m c 1 t) (blockAt m c 2 t) (blockAt m c 3 t) (blockAt m c 4 t) := by dsimp only [pipelineData]

/-- Each input's current staging buffer holds its block when the body starts. -/
theorem before_0 (c : Dev nD) (t : Fin cfg0.N) (d) : (pipelineData m 0 c).before 0 t d = blockAt m c 0 t :=
  input_held_0 m (pipelineData m 0 c) (arrays_atEntry m c 0) (after_0 m c) t d
theorem before_1 (c : Dev nD) (t : Fin cfg0.N) (d) : (pipelineData m 0 c).before 1 t d = blockAt m c 1 t :=
  input_held_1 m (pipelineData m 0 c) (arrays_atEntry m c 1) (after_1 m c) t d
theorem before_2 (c : Dev nD) (t : Fin cfg0.N) (d) : (pipelineData m 0 c).before 2 t d = blockAt m c 2 t :=
  input_held_2 m (pipelineData m 0 c) (arrays_atEntry m c 2) (after_2 m c) t d
theorem before_3 (c : Dev nD) (t : Fin cfg0.N) (d) : (pipelineData m 0 c).before 3 t d = blockAt m c 3 t :=
  input_held_3 m (pipelineData m 0 c) (arrays_atEntry m c 3) (after_3 m c) t d
theorem before_4 (c : Dev nD) (t : Fin cfg0.N) (d) : (pipelineData m 0 c).before 4 t d = blockAt m c 4 t :=
  input_held_4 m (pipelineData m 0 c) (arrays_atEntry m c 4) (after_4 m c) t d

/-! ## The body obligation, at a generic point -/

/-- What the body is called with at point `t`, the windows one by one, -/
def bodyPre (c : Dev nD) (t : Fin cfg0.N) : sProp 𝕄 :=
  iprop((pipelineData m 0 c).Φ t.castSucc ∗ (pipelineData m 0 c).owesAt () t.castSucc
    ∗ (∃ d, owns (c : Thread nD τ) (st0_0 t) fullShare ((pipelineData m 0 c).before 0 t d))
    ∗ (∃ d, owns (c : Thread nD τ) (st0_1 t) fullShare ((pipelineData m 0 c).before 1 t d))
    ∗ (∃ d, owns (c : Thread nD τ) (st0_2 t) fullShare ((pipelineData m 0 c).before 2 t d))
    ∗ (∃ d, owns (c : Thread nD τ) (st0_3 t) fullShare ((pipelineData m 0 c).before 3 t d))
    ∗ (∃ d, owns (c : Thread nD τ) (st0_4 t) fullShare ((pipelineData m 0 c).before 4 t d))
    ∗ (∃ d, owns (c : Thread nD τ) (st0_5 t) fullShare ((pipelineData m 0 c).before 5 t d))
    ∗ (∃ d, owns (c : Thread nD τ) (st0_6 t) fullShare ((pipelineData m 0 c).before 6 t d)))

/-- and what it returns. -/
def bodyPost (c : Dev nD) (t : Fin cfg0.N) : sProp 𝕄 :=
  iprop((pipelineData m 0 c).Φ t.succ ∗ (pipelineData m 0 c).owesAt () t.succ
    ∗ owns (c : Thread nD τ) (st0_0 t) fullShare ((pipelineData m 0 c).after 0 t)
    ∗ owns (c : Thread nD τ) (st0_1 t) fullShare ((pipelineData m 0 c).after 1 t)
    ∗ owns (c : Thread nD τ) (st0_2 t) fullShare ((pipelineData m 0 c).after 2 t)
    ∗ owns (c : Thread nD τ) (st0_3 t) fullShare ((pipelineData m 0 c).after 3 t)
    ∗ owns (c : Thread nD τ) (st0_4 t) fullShare ((pipelineData m 0 c).after 4 t)
    ∗ owns (c : Thread nD τ) (st0_5 t) fullShare ((pipelineData m 0 c).after 5 t)
    ∗ owns (c : Thread nD τ) (st0_6 t) fullShare ((pipelineData m 0 c).after 6 t))

/-- The body at any point: the inputs' buffers hold their blocks, so the body's triple applies; the
    invariant and the core's dues pass through unread. -/
theorem body_at_point (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (pipelineData m 0 c).Φ t.succ = (pipelineData m 0 c).Φ t.castSucc from rfl,
    show (pipelineData m 0 c).owesAt () t.succ = (pipelineData m 0 c).owesAt () t.castSucc from rfl,
    after_0, after_1, after_2, after_3, after_4, after_5, after_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (body_runs c Set.univ _ _ _ _ _ _ _ _ _ _ _ _ _ _ _ (blockAt m c 0 t) (blockAt m c 1 t) (blockAt m c 2 t) (blockAt m c 3 t) (blockAt m c 4 t) _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The pipeline library's body obligation, at every point. -/
theorem body_obligation (c : Dev nD) : BodyObligation (pipelineData (F := F) m 0 c) (defs₀ (F := F)) Variants.none () Set.univ := fun t => by
  rw [bigSep_W0, bigSep_W0]
  exact body_at_point m c t

/-! ## The run and the frame -/

set_option backward.isDefEq.respectTransparency.types false in
/-- From any memory with zero counters every weakly fair execution of @main terminates without a
    fault, and in every final state each window's array is what the library computes from the proof
    data (the two results: the write-backs of the 32 tiles) and every other unscoped buffer is as the
    region found it. -/
theorem run_main : θ_run defs (onTc (τ := τ) (main (F := F))) (s₀ m ρ) (Pipeline.FramePost cfgs (pipelineData m) 0 (atEntry m)) :=
  Pipeline.θ_run_frame cfgs (pipelineData m) (0 : Fin 1) launch0 defs₀ Variants.none m ρ main
    (hbody := fun c => (body_obligation m c).loose) (hshare := fun c => (pipelineData m 0 c).share_full fun _ => rfl)
    (howed := fun _ _ => rfl) (V := atEntry m) (hmain := main_reaches_region m Variants.none) (hA := arrays_atEntry m) (hΦ := fun _ _ => rfl)

/-- The frame: @main runs to the end, faults nowhere, and leaves its eleven argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of_run m ρ (pipelineData m) (arrays_atEntry m) (run_main m ρ)

end Cert.KernelIdeal.Region

end
-- ==== Proof.Spec.lean ====
/-
  One step of an LSTM cell over the extended reals, one batch row at a time.

  For a row `h` of the hidden state, a row `x` of the inputs and a row `c` of the cell state (1024
  entries each), the fused gate weights as two [1024, 4096] halves — `Wu`, the rows that meet `h`,
  and `Wl`, the rows that meet `x` — and the fused bias `b` (4096 entries), the gate pre-activation
  in column `n` is

      pre n = (Σ_k h k · Wu k n  +  Σ_k x k · Wl k n)  +  b n.

  Its 4096 columns are four bands of 1024: forget, input, output, candidate. With σ the logistic
  function, the new cell state and the new hidden state in column `j` are

      cellNew j   = σ(pre (forget j)) · c j  +  σ(pre (input j)) · tanh(pre (candidate j)),
      hiddenNew j = σ(pre (output j)) · tanh(cellNew j).

  One contraction over the 2048 rows of the whole weight matrix splits into these two over its
  halves (`contraction_split`): only commutativity and associativity of + on the extended reals are
  used, so nothing here asks the entries to be finite.
-/
import Idealize.ShloMosaic.PureOps.Ideal
import Idealize.ShloMosaic.Lib.ValueIdx

noncomputable section

namespace Cert.LstmCell

open Idealize.ShloMosaic Idealize.ShloMosaic.ValueIdx

/-! ## The four column bands of the gate pre-activations -/

def forgetCol (j : Fin 1024) : Fin 4096 := ⟨j.val, by omega⟩
def inputCol (j : Fin 1024) : Fin 4096 := ⟨1024 + j.val, by omega⟩
def outputCol (j : Fin 1024) : Fin 4096 := ⟨2048 + j.val, by omega⟩
def candidateCol (j : Fin 1024) : Fin 4096 := ⟨3072 + j.val, by omega⟩

/-! ## The two halves of the weight matrix's rows -/

def upperRow (k : Fin 1024) : Fin 2048 := ⟨k.val, by omega⟩
def lowerRow (k : Fin 1024) : Fin 2048 := ⟨1024 + k.val, by omega⟩

/-! ## One row of the cell -/

section Row
variable (h x c : Fin 1024 → EReal) (Wu Wl : Fin 1024 → Fin 4096 → EReal) (b : Fin 4096 → EReal)

/-- The gate pre-activation in column `n`. -/
def pre (n : Fin 4096) : EReal := ((∑ k : Fin 1024, h k * Wu k n) + (∑ k : Fin 1024, x k * Wl k n)) + b n

/-- The new cell state in column `j`. -/
def cellNew (j : Fin 1024) : EReal :=
  Ideal.logistic (pre h x Wu Wl b (forgetCol j)) * c j
    + Ideal.logistic (pre h x Wu Wl b (inputCol j)) * Ideal.tanh (pre h x Wu Wl b (candidateCol j))

/-- The new hidden state in column `j`. -/
def hiddenNew (j : Fin 1024) : EReal :=
  Ideal.logistic (pre h x Wu Wl b (outputCol j)) * Ideal.tanh (cellNew h x c Wu Wl b j)

end Row

/-- A sum over the 2048 rows is the sum over the upper 1024 plus the sum over the lower 1024. -/
theorem contraction_split (f : Fin 2048 → EReal) :
    ∑ k : Fin 2048, f k = (∑ k : Fin 1024, f (upperRow k)) + (∑ k : Fin 1024, f (lowerRow k)) := by
  have e := Fin.sum_univ_add (M := EReal) (a := 1024) (b := 1024) f
  rw [e]
  congr 1

/-! ## The fused parameters

Both programs build them with the same two host lines, so they are carried as these two terms and never opened:
the four [1024, 2048] gate matrices stacked along rows and transposed to [2048, 4096]; the four gate biases
stacked to one vector of 4096. -/

/-- The fused weight matrix. -/
def fusedWeights (Wf Wi Wo Wc : (⟨2, ![1024, 2048]⟩ : Shape).Idx → EReal)
    (hc : Shape.Concatenates [(⟨2, ![1024, 2048]⟩ : Shape), ⟨2, ![1024, 2048]⟩, ⟨2, ![1024, 2048]⟩, ⟨2, ![1024, 2048]⟩] ⟨2, ![4096, 2048]⟩ 0)
    (ht : (⟨2, ![4096, 2048]⟩ : Shape).Transposes [1, 0] ⟨2, ![2048, 4096]⟩) : (⟨2, ![2048, 4096]⟩ : Shape).Idx → EReal :=
  transpose ⟨2, ![2048, 4096]⟩ [1, 0]
    (concatenate ⟨2, ![4096, 2048]⟩ 0 [⟨⟨2, ![1024, 2048]⟩, Wf⟩, ⟨⟨2, ![1024, 2048]⟩, Wi⟩, ⟨⟨2, ![1024, 2048]⟩, Wo⟩, ⟨⟨2, ![1024, 2048]⟩, Wc⟩] hc) ht

/-- The fused bias vector. -/
def fusedBias (bf bi bo bc : (⟨1, ![1024]⟩ : Shape).Idx → EReal)
    (hc : Shape.Concatenates [(⟨1, ![1024]⟩ : Shape), ⟨1, ![1024]⟩, ⟨1, ![1024]⟩, ⟨1, ![1024]⟩] ⟨1, ![4096]⟩ 0) : (⟨1, ![4096]⟩ : Shape).Idx → EReal :=
  concatenate ⟨1, ![4096]⟩ 0 [⟨⟨1, ![1024]⟩, bf⟩, ⟨⟨1, ![1024]⟩, bi⟩, ⟨⟨1, ![1024]⟩, bo⟩, ⟨⟨1, ![1024]⟩, bc⟩] hc

/-! ## Congruence: the row functions depend on their arguments only through their values -/

theorem cellNew_congr {h h' x x' c c' : Fin 1024 → EReal} {Wu Wu' Wl Wl' : Fin 1024 → Fin 4096 → EReal} {b b' : Fin 4096 → EReal}
    (eh : ∀ k, h k = h' k) (ex : ∀ k, x k = x' k) (ec : ∀ k, c k = c' k) (eu : ∀ k n, Wu k n = Wu' k n) (el : ∀ k n, Wl k n = Wl' k n)
    (eb : ∀ n, b n = b' n) (j : Fin 1024) : cellNew h x c Wu Wl b j = cellNew h' x' c' Wu' Wl' b' j := by
  have h1 : h = h' := funext eh
  have h2 : x = x' := funext ex
  have h3 : c = c' := funext ec
  have h4 : Wu = Wu' := funext fun k => funext (eu k)
  have h5 : Wl = Wl' := funext fun k => funext (el k)
  have h6 : b = b' := funext eb
  rw [h1, h2, h3, h4, h5, h6]

theorem hiddenNew_congr {h h' x x' c c' : Fin 1024 → EReal} {Wu Wu' Wl Wl' : Fin 1024 → Fin 4096 → EReal} {b b' : Fin 4096 → EReal}
    (eh : ∀ k, h k = h' k) (ex : ∀ k, x k = x' k) (ec : ∀ k, c k = c' k) (eu : ∀ k n, Wu k n = Wu' k n) (el : ∀ k n, Wl k n = Wl' k n)
    (eb : ∀ n, b n = b' n) (j : Fin 1024) : hiddenNew h x c Wu Wl b j = hiddenNew h' x' c' Wu' Wl' b' j := by
  have h1 : h = h' := funext eh
  have h2 : x = x' := funext ex
  have h3 : c = c' := funext ec
  have h4 : Wu = Wu' := funext fun k => funext (eu k)
  have h5 : Wl = Wl' := funext fun k => funext (el k)
  have h6 : b = b' := funext eb
  rw [h1, h2, h3, h4, h5, h6]

/-! ## The whole arrays -/

section Arrays
variable (H X C : (⟨2, ![8192, 1024]⟩ : Shape).Idx → EReal)
  (WT : (⟨2, ![2048, 4096]⟩ : Shape).Idx → EReal) (B : (⟨1, ![4096]⟩ : Shape).Idx → EReal)

/-- The upper half of the fused [2048, 4096] weight matrix. -/
def upperHalf (k : Fin 1024) (n : Fin 4096) : EReal := WT (ix2 (upperRow k) n)
/-- Its lower half. -/
def lowerHalf (k : Fin 1024) (n : Fin 4096) : EReal := WT (ix2 (lowerRow k) n)
/-- The fused bias as a function of the column. -/
def biasAt (n : Fin 4096) : EReal := B (ix1 n)

/-- The new cell state of the whole batch: row `r`, column `j`. -/
def cellArray (r : Fin 8192) (j : Fin 1024) : EReal :=
  cellNew (fun k => H (ix2 r k)) (fun k => X (ix2 r k)) (fun k => C (ix2 r k)) (upperHalf WT) (lowerHalf WT) (biasAt B) j

/-- The new hidden state of the whole batch: row `r`, column `j`. -/
def hiddenArray (r : Fin 8192) (j : Fin 1024) : EReal :=
  hiddenNew (fun k => H (ix2 r k)) (fun k => X (ix2 r k)) (fun k => C (ix2 r k)) (upperHalf WT) (lowerHalf WT) (biasAt B) j

end Arrays

end Cert.LstmCell

end
-- ==== Proof.TileValue.lean ====
/-
  The body's arithmetic at one entry of a tile, at the ideal instance.

  For loaded values — a [256, 1024] tile of hidden, of inputs and of the cell state, the two
  [1024, 4096] halves of the weight matrix and the [1, 4096] bias row — entry (p, j) of the value the
  body stores into the new-cell-state tile is the spec's `cellNew` of row `p` of the three tiles, and
  entry (p, j) of the value it stores into the new-hidden-state tile is the spec's `hiddenNew` of
  the same rows. Narrowing to bf16 is the identity on extended reals; a matrix product into a zero
  accumulator is the plain sum over the contracted axis; the bias row is repeated on every row; the
  four gate bands are column slices at offsets 0, 1024, 2048, 3072.
-/
import proofs.«140588_j57432302682693_2_alg».proof.Proof.Spec
import proofs.«140588_j57432302682693_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.TileValue

open Cert.KernelIdeal Cert.KernelIdeal.Gen Cert.LstmCell
open Idealize.ShloMosaic Idealize.ShloMosaic.ValueIdx

/-! ## The matrix product at an entry -/

theorem lhs_row (i : S256x4096.Idx) (q : dot_S256x1024_S1024x4096_S256x4096_1_0_0_1_n_n.contr.Idx) :
    (dot_S256x1024_S1024x4096_S256x4096_1_0_0_1_n_n.lhsIdx i q 0).val = (i 0).val := by
  unfold DotDims.lhsIdx
  rw [dif_neg (show ¬(0 : Fin S256x1024.rank) ∈ dot_S256x1024_S1024x4096_S256x4096_1_0_0_1_n_n.lhsBatch by decide), dif_pos (show (0 : Fin S256x1024.rank) ∈ dot_S256x1024_S1024x4096_S256x4096_1_0_0_1_n_n.lhsNonContracting by decide)]
  rfl
theorem lhs_contr (i : S256x4096.Idx) (q : dot_S256x1024_S1024x4096_S256x4096_1_0_0_1_n_n.contr.Idx) :
    (dot_S256x1024_S1024x4096_S256x4096_1_0_0_1_n_n.lhsIdx i q 1).val = (q ⟨0, by decide⟩).val :=
  dot_S256x1024_S1024x4096_S256x4096_1_0_0_1_n_n.lhsIdx_val_of_single rfl i q
theorem rhs_contr (i : S256x4096.Idx) (q : dot_S256x1024_S1024x4096_S256x4096_1_0_0_1_n_n.contr.Idx) :
    (dot_S256x1024_S1024x4096_S256x4096_1_0_0_1_n_n.rhsIdx i q 0).val = (q ⟨0, by decide⟩).val :=
  dot_S256x1024_S1024x4096_S256x4096_1_0_0_1_n_n.rhsIdx_val_of_single rfl i q
theorem rhs_col (i : S256x4096.Idx) (q : dot_S256x1024_S1024x4096_S256x4096_1_0_0_1_n_n.contr.Idx) :
    (dot_S256x1024_S1024x4096_S256x4096_1_0_0_1_n_n.rhsIdx i q 1).val = (i 1).val := by
  unfold DotDims.rhsIdx
  rw [dif_neg (show ¬(1 : Fin S1024x4096.rank) ∈ dot_S256x1024_S1024x4096_S256x4096_1_0_0_1_n_n.rhsBatch by decide), dif_pos (show (1 : Fin S1024x4096.rank) ∈ dot_S256x1024_S1024x4096_S256x4096_1_0_0_1_n_n.rhsNonContracting by decide)]
  rfl

/-- A [256, 1024] × [1024, 4096] product into a zero accumulator, at entry (p, n): the sum over the
    1024 contracted positions. -/
theorem product_at (a : FVec Ideal S256x1024 .bf16) (w : FVec Ideal S1024x4096 .bf16) (p : Fin 256) (n : Fin 4096) :
    matmul dot_S256x1024_S1024x4096_S256x4096_1_0_0_1_n_n none a w (constant (F := Ideal) S256x4096 .f32 0x00000000#32) (ix2 p n)
      = ∑ k : Fin 1024, a (ix2 p k) * w (ix2 k n) := by
  simp only [matmul]
  rw [Ideal.matmul_constant_zero_apply, ← Equiv.sum_comp (contrEquiv1 dot_S256x1024_S1024x4096_S256x4096_1_0_0_1_n_n 1024 rfl rfl).symm]
  refine Finset.sum_congr rfl fun k _ => ?_
  have hk := contrEquiv1_symm_val dot_S256x1024_S1024x4096_S256x4096_1_0_0_1_n_n 1024 rfl rfl k
  have el : dot_S256x1024_S1024x4096_S256x4096_1_0_0_1_n_n.lhsIdx (ix2 p n) ((contrEquiv1 dot_S256x1024_S1024x4096_S256x4096_1_0_0_1_n_n 1024 rfl rfl).symm k) = ix2 p k := funext fun ax => Fin.ext (by
    match ax with
    | ⟨0, _⟩ => exact lhs_row _ _
    | ⟨1, _⟩ => exact (lhs_contr _ _).trans hk)
  have er : dot_S256x1024_S1024x4096_S256x4096_1_0_0_1_n_n.rhsIdx (ix2 p n) ((contrEquiv1 dot_S256x1024_S1024x4096_S256x4096_1_0_0_1_n_n 1024 rfl rfl).symm k) = ix2 k n := funext fun ax => Fin.ext (by
    match ax with
    | ⟨0, _⟩ => exact (rhs_contr _ _).trans hk
    | ⟨1, _⟩ => exact rhs_col _ _)
  rw [el, er]

/-! ## The payloads at an entry -/

section Payloads
variable (v0 v2 : FVec Ideal S256x1024 .f32) (v4 v6 : FVec Ideal S1024x4096 .bf16) (v11 : FVec Ideal S1x4096 .f32) (v23 : FVec Ideal S256x1024 .f32)

/-- The gate pre-activations at (p, n). -/
theorem pre_at (p : Fin 256) (n : Fin 4096) :
    k0_pay1 (F := Ideal) v0 v2 v4 v6 v11 (ix2 p n)
      = pre (fun k => v0 (ix2 p k)) (fun k => v2 (ix2 p k)) (fun k n => v4 (ix2 k n)) (fun k n => v6 (ix2 k n))
          (fun n => v11 (ix2 (0 : Fin 1) n)) n := by
  unfold k0_pay1 pre
  show (matmul dot_S256x1024_S1024x4096_S256x4096_1_0_0_1_n_n none (truncf .bf16 v0 bitsLt_bf16_f32) (shapeCast S1024x4096 v4 shapeCasts_S1024x4096_S1024x4096) (constant (F := Ideal) S256x4096 .f32 0x00000000#32) (ix2 p n)
        + matmul dot_S256x1024_S1024x4096_S256x4096_1_0_0_1_n_n none (truncf .bf16 v2 bitsLt_bf16_f32) (shapeCast S1024x4096 v6 shapeCasts_S1024x4096_S1024x4096) (constant (F := Ideal) S256x4096 .f32 0x00000000#32) (ix2 p n))
      + broadcastTo S256x4096 (shapeCast S1x4096 v11 shapeCasts_S1x4096_S1x4096) broadcasts_S1x4096_S256x4096 (ix2 p n) = _
  rw [product_at, product_at, broadcastTo_1b_ab_apply, shapeCast_self, shapeCast_self, shapeCast_self]
  rfl

/-- The new-cell-state payload at (p, j). -/
theorem cell_at (p : Fin 256) (j : Fin 1024) :
    k0_pay2 (F := Ideal) v0 v2 v4 v6 v11 v23 (ix2 p j)
      = cellNew (fun k => v0 (ix2 p k)) (fun k => v2 (ix2 p k)) (fun k => v23 (ix2 p k)) (fun k n => v4 (ix2 k n)) (fun k n => v6 (ix2 k n))
          (fun n => v11 (ix2 (0 : Fin 1) n)) j := by
  have ef := slice2_axis1_apply 0 (k0_pay1 (F := Ideal) v0 v2 v4 v6 v11) slices_S256x4096_o0_0_S256x1024 p j (forgetCol j) (Nat.zero_add _).symm
  have ei := slice2_axis1_apply 1024 (k0_pay1 (F := Ideal) v0 v2 v4 v6 v11) slices_S256x4096_o0_1024_S256x1024 p j (inputCol j) rfl
  have ec := slice2_axis1_apply 3072 (k0_pay1 (F := Ideal) v0 v2 v4 v6 v11) slices_S256x4096_o0_3072_S256x1024 p j (candidateCol j) rfl
  unfold k0_pay2 cellNew
  show Ideal.logistic (extractStridedSlice S256x1024 ![0, 0] (k0_pay1 (F := Ideal) v0 v2 v4 v6 v11) slices_S256x4096_o0_0_S256x1024 (ix2 p j)) * v23 (ix2 p j)
      + Ideal.logistic (extractStridedSlice S256x1024 ![0, 1024] (k0_pay1 (F := Ideal) v0 v2 v4 v6 v11) slices_S256x4096_o0_1024_S256x1024 (ix2 p j))
        * Ideal.tanh (extractStridedSlice S256x1024 ![0, 3072] (k0_pay1 (F := Ideal) v0 v2 v4 v6 v11) slices_S256x4096_o0_3072_S256x1024 (ix2 p j)) = _
  rw [ef, ei, ec, pre_at, pre_at, pre_at]

/-- The new-hidden-state payload at (p, j). -/
theorem hidden_at (p : Fin 256) (j : Fin 1024) :
    k0_pay3 (F := Ideal) v0 v2 v4 v6 v11 v23 (ix2 p j)
      = hiddenNew (fun k => v0 (ix2 p k)) (fun k => v2 (ix2 p k)) (fun k => v23 (ix2 p k)) (fun k n => v4 (ix2 k n)) (fun k n => v6 (ix2 k n))
          (fun n => v11 (ix2 (0 : Fin 1) n)) j := by
  have eo := slice2_axis1_apply 2048 (k0_pay1 (F := Ideal) v0 v2 v4 v6 v11) slices_S256x4096_o0_2048_S256x1024 p j (outputCol j) rfl
  unfold k0_pay3 hiddenNew
  show Ideal.logistic (extractStridedSlice S256x1024 ![0, 2048] (k0_pay1 (F := Ideal) v0 v2 v4 v6 v11) slices_S256x4096_o0_2048_S256x1024 (ix2 p j))
      * Ideal.tanh (k0_pay2 (F := Ideal) v0 v2 v4 v6 v11 v23 (ix2 p j)) = _
  rw [eo, pre_at, cell_at]

end Payloads

end Cert.KernelIdeal.TileValue

end
-- ==== Proof.KernelValue.lean ====
/-
  From the 32 tiles to the two result arrays of the idealized kernel.

  Grid point `t` works on rows 256·t … 256·t + 255: its hidden, inputs and cell-state blocks are those
  rows of the three batch-major arguments, its weight and bias blocks the whole fused matrix and the
  whole bias row (as the host lines before the region left them), and what it writes back to either
  result is rows 256·t … 256·t + 255 of ONE whole-array function of the arguments: the spec's
  `cellArray` / `hiddenArray`. The 32 row bands tile the 8192 rows (row `r` lies in band `r / 256`), so
  after the run each result array IS that function.
-/
import proofs.«140588_j57432302682693_2_alg».proof.Proof.RunIdeal
import proofs.«140588_j57432302682693_2_alg».proof.Proof.TileValue
import Idealize.ShloMosaic.Lib.Pipeline.Value
import Idealize.ShloMosaic.Lib.ValueIdx
import Idealize.ShloMosaic.Lib.ValueLayout
import Idealize.ShloMosaic.Lib.StableHlo.Run

set_option maxRecDepth 16384

noncomputable section

namespace Cert.KernelIdeal.Result

open Cert.KernelIdeal Cert.KernelIdeal.Gen Cert.KernelIdeal.Region Cert.KernelIdeal.TileValue Cert.LstmCell
open Idealize.ShloMosaic Idealize.ShloMosaic.TcCoe Idealize.SL.Sem Idealize.ShloMosaic.ValueIdx Idealize.ShloMosaic.StableHlo
open Idealize.ShloMosaic.Pipeline (Dat)

variable (m : (ℓ : Loc nD τ sig) → Buf (Elt Ideal) ℓ) (ρ : Dev nD → PrngReg)

/-! ## The two results as functions of the argument arrays -/

/-- The fused weight matrix of core `c`'s arguments. -/
def weights (c : Dev nD) : S2048x4096.Idx → EReal :=
  fusedWeights (m ((c : Thread nD τ).loc main_arg3)) (m ((c : Thread nD τ).loc main_arg5)) (m ((c : Thread nD τ).loc main_arg7)) (m ((c : Thread nD τ).loc main_arg9))
    concatenates_S1024x2048_S1024x2048_S1024x2048_S1024x2048_S4096x2048_d0 transposes_S4096x2048_S2048x4096_1_0

/-- The fused bias vector of core `c`'s arguments. -/
def bias (c : Dev nD) : S4096.Idx → EReal :=
  fusedBias (m ((c : Thread nD τ).loc main_arg4)) (m ((c : Thread nD τ).loc main_arg6)) (m ((c : Thread nD τ).loc main_arg8)) (m ((c : Thread nD τ).loc main_arg10)) concatenates_S1024_S1024_S1024_S1024_S4096_d0

/-- The new cell state, as an array. -/
def cellResult (c : Dev nD) : S8192x1024.Idx → EReal := fun i =>
  cellArray (m ((c : Thread nD τ).loc main_arg1)) (m ((c : Thread nD τ).loc main_arg0)) (m ((c : Thread nD τ).loc main_arg2))
    (weights m c) (bias m c) (i 0) (i 1)

/-- The new hidden state, as an array. -/
def hiddenResult (c : Dev nD) : S8192x1024.Idx → EReal := fun i =>
  hiddenArray (m ((c : Thread nD τ).loc main_arg1)) (m ((c : Thread nD τ).loc main_arg0)) (m ((c : Thread nD τ).loc main_arg2))
    (weights m c) (bias m c) (i 0) (i 1)

/-! ## The two host-written operands as the region finds them -/

/-- The weight operand is the fused matrix (narrowing to bf16 is the identity on extended reals). -/
theorem weights_atEntry (c : Dev nD) (i : S2048x4096.Idx) : atEntry m c main_v3 i = weights m c i := by
  have e : (atEntry m c main_v3 : S2048x4096.Idx → EReal) = truncf (F := Ideal) (s := S2048x4096) (φ := .f32) .bf16 (weights m c) bitsLt_bf16_f32 := by
    dsimp only [atEntry]
    simp only [hostOps0, List.flatten_cons, List.flatten_nil, List.append_nil, List.cons_append, List.nil_append]
    after_results
    rfl
  exact congrFun e i

/-- The bias operand is the fused bias laid out as one row. -/
theorem bias_atEntry (c : Dev nD) (n : Fin 4096) : atEntry m c main_v4 (ix2 (0 : Fin 1) n) = bias m c (ix1 n) := by
  have e : (atEntry m c main_v4 : S1x4096.Idx → EReal) = shapeCast S1x4096 (bias m c) shapeCasts_S4096_S1x4096 := by
    dsimp only [atEntry]
    simp only [hostOps0, List.flatten_cons, List.flatten_nil, List.append_nil, List.cons_append, List.nil_append]
    after_results
    beta_reduce
    after_results
    rfl
  rw [e]
  exact shapeCast_a_1a_apply (bias m c) shapeCasts_S4096_S1x4096 0 n

/-! ## The blocks of a grid point -/

theorem point_lt (t : Fin cfg0.N) : t.val < 32 := by
  have h : t.val < grid0.N := t.isLt
  rwa [N_0] at h

/-- Row `p` of grid point `t`'s tile is row 256·t + p of the batch. -/
def rowAt (t : Fin cfg0.N) (p : Fin 256) : Fin 8192 := ⟨256 * t.val + p.val, by have := point_lt t; omega⟩

/-- The printed index maps, decided over the 32 points: the five batch-major windows sit at block row
    `t`, block column 0; the two resident operands at block (0, 0). -/
theorem index_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

theorem hidden_read (c : Dev nD) (t : Fin cfg0.N) (p : Fin 256) (k : Fin 1024) :
    View.ld (blockAt m c 0 t) wholeTile (ix2 p k) = m ((c : Thread nD τ).loc main_arg1) (ix2 (rowAt t p) k) := by
  rw [← atEntry_arg1 m c]
  show atEntry m c main_arg1 (((cfg0.win 0).blk t).view.emb (wholeTile.emb (ix2 p k))) = atEntry m c main_arg1 (ix2 (rowAt t p) k)
  obtain ⟨e0, e1, -⟩ := index_facts t
  refine congrArg (atEntry m c main_arg1) (funext fun a => Fin.ext ?_)
  match a with
  | ⟨0, _⟩ => show win0_0.index t (0 : Fin 2) * 256 + 1 * (0 + 1 * p.val) = 256 * t.val + p.val; omega
  | ⟨1, _⟩ => show win0_0.index t (1 : Fin 2) * 1024 + 1 * (0 + 1 * k.val) = k.val; omega

theorem inputs_read (c : Dev nD) (t : Fin cfg0.N) (p : Fin 256) (k : Fin 1024) :
    View.ld (blockAt m c 1 t) wholeTile (ix2 p k) = m ((c : Thread nD τ).loc main_arg0) (ix2 (rowAt t p) k) := by
  rw [← atEntry_arg0 m c]
  show atEntry m c main_arg0 (((cfg0.win 1).blk t).view.emb (wholeTile.emb (ix2 p k))) = atEntry m c main_arg0 (ix2 (rowAt t p) k)
  obtain ⟨-, -, e0, e1, -⟩ := index_facts t
  refine congrArg (atEntry m c main_arg0) (funext fun a => Fin.ext ?_)
  match a with
  | ⟨0, _⟩ => show win0_1.index t (0 : Fin 2) * 256 + 1 * (0 + 1 * p.val) = 256 * t.val + p.val; omega
  | ⟨1, _⟩ => show win0_1.index t (1 : Fin 2) * 1024 + 1 * (0 + 1 * k.val) = k.val; omega

theorem cellState_read (c : Dev nD) (t : Fin cfg0.N) (p : Fin 256) (k : Fin 1024) :
    View.ld (blockAt m c 2 t) wholeTile (ix2 p k) = m ((c : Thread nD τ).loc main_arg2) (ix2 (rowAt t p) k) := by
  rw [← atEntry_arg2 m c]
  show atEntry m c main_arg2 (((cfg0.win 2).blk t).view.emb (wholeTile.emb (ix2 p k))) = atEntry m c main_arg2 (ix2 (rowAt t p) k)
  obtain ⟨-, -, -, -, e0, e1, -⟩ := index_facts t
  refine congrArg (atEntry m c main_arg2) (funext fun a => Fin.ext ?_)
  match a with
  | ⟨0, _⟩ => show win0_2.index t (0 : Fin 2) * 256 + 1 * (0 + 1 * p.val) = 256 * t.val + p.val; omega
  | ⟨1, _⟩ => show win0_2.index t (1 : Fin 2) * 1024 + 1 * (0 + 1 * k.val) = k.val; omega

theorem upper_read (c : Dev nD) (t : Fin cfg0.N) (k : Fin 1024) (n : Fin 4096) :
    View.ld (blockAt m c 3 t) upperRows (ix2 k n) = upperHalf (weights m c) k n := by
  unfold upperHalf
  rw [← weights_atEntry m c]
  show atEntry m c main_v3 (((cfg0.win 3).blk t).view.emb (upperRows.emb (ix2 k n))) = atEntry m c main_v3 (ix2 (upperRow k) n)
  obtain ⟨-, -, -, -, -, -, e0, e1, -⟩ := index_facts t
  refine congrArg (atEntry m c main_v3) (funext fun a => Fin.ext ?_)
  match a with
  | ⟨0, _⟩ => show win0_3.index t (0 : Fin 2) * 2048 + 1 * (0 + 1 * k.val) = k.val; omega
  | ⟨1, _⟩ => show win0_3.index t (1 : Fin 2) * 4096 + 1 * (0 + 1 * n.val) = n.val; omega

theorem lower_read (c : Dev nD) (t : Fin cfg0.N) (k : Fin 1024) (n : Fin 4096) :
    View.ld (blockAt m c 3 t) lowerRows (ix2 k n) = lowerHalf (weights m c) k n := by
  unfold lowerHalf
  rw [← weights_atEntry m c]
  show atEntry m c main_v3 (((cfg0.win 3).blk t).view.emb (lowerRows.emb (ix2 k n))) = atEntry m c main_v3 (ix2 (lowerRow k) n)
  obtain ⟨-, -, -, -, -, -, e0, e1, -⟩ := index_facts t
  refine congrArg (atEntry m c main_v3) (funext fun a => Fin.ext ?_)
  match a with
  | ⟨0, _⟩ => show win0_3.index t (0 : Fin 2) * 2048 + 1 * (1024 + 1 * k.val) = 1024 + k.val; omega
  | ⟨1, _⟩ => show win0_3.index t (1 : Fin 2) * 4096 + 1 * (0 + 1 * n.val) = n.val; omega

theorem bias_read (c : Dev nD) (t : Fin cfg0.N) (n : Fin 4096) :
    View.ld (blockAt m c 4 t) biasRow (ix2 (0 : Fin 1) n) = biasAt (bias m c) n := by
  unfold biasAt
  rw [← bias_atEntry m c]
  show atEntry m c main_v4 (((cfg0.win 4).blk t).view.emb (biasRow.emb (ix2 (0 : Fin 1) n))) = atEntry m c main_v4 (ix2 (0 : Fin 1) n)
  obtain ⟨-, -, -, -, -, -, -, -, e0, e1, -⟩ := index_facts t
  refine congrArg (atEntry m c main_v4) (funext fun a => Fin.ext ?_)
  match a with
  | ⟨0, _⟩ => show win0_4.index t (0 : Fin 2) * 1 + 1 * (0 + 1 * 0) = 0; omega
  | ⟨1, _⟩ => show win0_4.index t (1 : Fin 2) * 4096 + 1 * (0 + 1 * n.val) = n.val; omega

/-! ## What a grid point writes back -/

theorem zero_offsets : (![0, 0] : Fin 2 → Nat) = fun _ => 0 := funext fun a => by fin_cases a <;> rfl

/-- Point `t` writes back, to the new cell state, rows 256·t … 256·t + 255 of `cellResult`. -/
theorem cell_flushed (c : Dev nD) (t : Fin cfg0.N) :
    (pipelineData m 0 c).flushed 6 t = ((cfg0.win 6).blk t).view.read (Elt Ideal) (cellResult m c) := by
  show (cfg0.win 6).cut (grid0.coords t) ((pipelineData m 0 c).after 6 t) = _
  rw [after_6]
  unfold cellTile
  rw [View.canon_unit_zero zero_offsets]
  obtain ⟨-, -, -, -, -, -, -, -, -, -, -, -, e0, e1⟩ := index_facts t
  funext j
  have hj0 : (j 0).val < 256 := (j 0).isLt
  have hj1 : (j 1).val < 1024 := (j 1).isLt
  have hjj : j = ix2 (⟨(j 0).val, hj0⟩ : Fin 256) (⟨(j 1).val, hj1⟩ : Fin 1024) := funext fun a => by
    match a with
    | ⟨0, _⟩ => rfl
    | ⟨1, _⟩ => rfl
  have hemb : ((cfg0.win 6).blk t).view.emb j = ix2 (rowAt t ⟨(j 0).val, hj0⟩) (⟨(j 1).val, hj1⟩ : Fin 1024) := funext fun a => Fin.ext (by
    match a with
    | ⟨0, _⟩ => show win0_6.index t (0 : Fin 2) * 256 + 1 * (j 0).val = 256 * t.val + (j 0).val; omega
    | ⟨1, _⟩ => show win0_6.index t (1 : Fin 2) * 1024 + 1 * (j 1).val = (j 1).val; omega)
  show k0_pay2 (F := Ideal) (View.ld (blockAt m c 0 t) wholeTile) (View.ld (blockAt m c 1 t) wholeTile) (View.ld (blockAt m c 3 t) upperRows) (View.ld (blockAt m c 3 t) lowerRows) (View.ld (blockAt m c 4 t) biasRow) (View.ld (blockAt m c 2 t) wholeTile) j = cellResult m c (((cfg0.win 6).blk t).view.emb j)
  rw [hemb]
  refine (congrArg (k0_pay2 (F := Ideal) (View.ld (blockAt m c 0 t) wholeTile) (View.ld (blockAt m c 1 t) wholeTile) (View.ld (blockAt m c 3 t) upperRows) (View.ld (blockAt m c 3 t) lowerRows) (View.ld (blockAt m c 4 t) biasRow) (View.ld (blockAt m c 2 t) wholeTile)) hjj).trans ?_
  refine (cell_at (View.ld (blockAt m c 0 t) wholeTile) (View.ld (blockAt m c 1 t) wholeTile) (View.ld (blockAt m c 3 t) upperRows) (View.ld (blockAt m c 3 t) lowerRows) (View.ld (blockAt m c 4 t) biasRow) (View.ld (blockAt m c 2 t) wholeTile) ⟨(j 0).val, hj0⟩ ⟨(j 1).val, hj1⟩).trans ?_
  exact cellNew_congr (fun k => hidden_read m c t _ k) (fun k => inputs_read m c t _ k) (fun k => cellState_read m c t _ k)
    (fun k n => upper_read m c t k n) (fun k n => lower_read m c t k n) (fun n => bias_read m c t n) _

/-- Point `t` writes back, to the new hidden state, rows 256·t … 256·t + 255 of `hiddenResult`. -/
theorem hidden_flushed (c : Dev nD) (t : Fin cfg0.N) :
    (pipelineData m 0 c).flushed 5 t = ((cfg0.win 5).blk t).view.read (Elt Ideal) (hiddenResult m c) := by
  show (cfg0.win 5).cut (grid0.coords t) ((pipelineData m 0 c).after 5 t) = _
  rw [after_5]
  unfold hiddenTile
  rw [View.canon_unit_zero zero_offsets]
  obtain ⟨-, -, -, -, -, -, -, -, -, -, e0, e1, -⟩ := index_facts t
  funext j
  have hj0 : (j 0).val < 256 := (j 0).isLt
  have hj1 : (j 1).val < 1024 := (j 1).isLt
  have hjj : j = ix2 (⟨(j 0).val, hj0⟩ : Fin 256) (⟨(j 1).val, hj1⟩ : Fin 1024) := funext fun a => by
    match a with
    | ⟨0, _⟩ => rfl
    | ⟨1, _⟩ => rfl
  have hemb : ((cfg0.win 5).blk t).view.emb j = ix2 (rowAt t ⟨(j 0).val, hj0⟩) (⟨(j 1).val, hj1⟩ : Fin 1024) := funext fun a => Fin.ext (by
    match a with
    | ⟨0, _⟩ => show win0_5.index t (0 : Fin 2) * 256 + 1 * (j 0).val = 256 * t.val + (j 0).val; omega
    | ⟨1, _⟩ => show win0_5.index t (1 : Fin 2) * 1024 + 1 * (j 1).val = (j 1).val; omega)
  show k0_pay3 (F := Ideal) (View.ld (blockAt m c 0 t) wholeTile) (View.ld (blockAt m c 1 t) wholeTile) (View.ld (blockAt m c 3 t) upperRows) (View.ld (blockAt m c 3 t) lowerRows) (View.ld (blockAt m c 4 t) biasRow) (View.ld (blockAt m c 2 t) wholeTile) j = hiddenResult m c (((cfg0.win 5).blk t).view.emb j)
  rw [hemb]
  refine (congrArg (k0_pay3 (F := Ideal) (View.ld (blockAt m c 0 t) wholeTile) (View.ld (blockAt m c 1 t) wholeTile) (View.ld (blockAt m c 3 t) upperRows) (View.ld (blockAt m c 3 t) lowerRows) (View.ld (blockAt m c 4 t) biasRow) (View.ld (blockAt m c 2 t) wholeTile)) hjj).trans ?_
  refine (hidden_at (View.ld (blockAt m c 0 t) wholeTile) (View.ld (blockAt m c 1 t) wholeTile) (View.ld (blockAt m c 3 t) upperRows) (View.ld (blockAt m c 3 t) lowerRows) (View.ld (blockAt m c 4 t) biasRow) (View.ld (blockAt m c 2 t) wholeTile) ⟨(j 0).val, hj0⟩ ⟨(j 1).val, hj1⟩).trans ?_
  exact hiddenNew_congr (fun k => hidden_read m c t _ k) (fun k => inputs_read m c t _ k) (fun k => cellState_read m c t _ k)
    (fun k n => upper_read m c t k n) (fun k n => lower_read m c t k n) (fun n => bias_read m c t n) _

/-! ## The tiles cover the arrays -/

/-- An index of the array lies in point `t`'s block of the cellState iff each coordinate is in the block's range. -/
theorem mem_cellState_block (t : Fin cfg0.N) (i : S8192x1024.Idx) :
    i ∈ ((cfg0.win 6).blk t).view.set ↔ ∀ a : Fin 2, win0_6.index t a * S256x1024.size a ≤ (i a).val ∧ (i a).val < win0_6.index t a * S256x1024.size a + S256x1024.size a := by
  show i ∈ ((View.whole main_v5_1).slice (win0_6.rect t)).set ↔ _
  rw [View.set_slice_whole, Rect.mem_set_unit]
  exact Iff.rfl

/-- Every index of the cellState lies in the block of the point `(row) / 256`: the 32 row bands tile the array. -/
theorem cellState_covered (i : S8192x1024.Idx) :
    ∃ t : Fin cfg0.N, (cfg0.win 6).flush t = true ∧ i ∈ ((cfg0.win 6).blk t).view.set := by
  have hi0 : (i 0).val < 8192 := (i 0).isLt
  have hi1 : (i 1).val < 1024 := (i 1).isLt
  have hN : grid0.N = 32 := N_0
  have ht : (i 0).val / 256 < cfg0.N := by show (i 0).val / 256 < grid0.N; rw [hN]; omega
  obtain ⟨-, -, -, -, -, -, -, -, -, -, h50, h51, h60, h61⟩ := index_facts ⟨(i 0).val / 256, ht⟩
  refine ⟨⟨(i 0).val / 256, ht⟩, flush0_6 _, ?_⟩
  rw [mem_cellState_block]
  intro a
  match a with
  | ⟨0, _⟩ =>
    show win0_6.index ⟨(i 0).val / 256, ht⟩ (0 : Fin 2) * 256 ≤ (i 0).val ∧ (i 0).val < win0_6.index ⟨(i 0).val / 256, ht⟩ (0 : Fin 2) * 256 + 256
    have hv : (⟨(i 0).val / 256, ht⟩ : Fin cfg0.N).val = (i 0).val / 256 := rfl
    omega
  | ⟨1, _⟩ =>
    show win0_6.index ⟨(i 0).val / 256, ht⟩ (1 : Fin 2) * 1024 ≤ (i 1).val ∧ (i 1).val < win0_6.index ⟨(i 0).val / 256, ht⟩ (1 : Fin 2) * 1024 + 1024
    omega

/-- An index of the array lies in point `t`'s block of the hiddenState iff each coordinate is in the block's range. -/
theorem mem_hiddenState_block (t : Fin cfg0.N) (i : S8192x1024.Idx) :
    i ∈ ((cfg0.win 5).blk t).view.set ↔ ∀ a : Fin 2, win0_5.index t a * S256x1024.size a ≤ (i a).val ∧ (i a).val < win0_5.index t a * S256x1024.size a + S256x1024.size a := by
  show i ∈ ((View.whole main_v5_0).slice (win0_5.rect t)).set ↔ _
  rw [View.set_slice_whole, Rect.mem_set_unit]
  exact Iff.rfl

/-- Every index of the hiddenState lies in the block of the point `(row) / 256`: the 32 row bands tile the array. -/
theorem hiddenState_covered (i : S8192x1024.Idx) :
    ∃ t : Fin cfg0.N, (cfg0.win 5).flush t = true ∧ i ∈ ((cfg0.win 5).blk t).view.set := by
  have hi0 : (i 0).val < 8192 := (i 0).isLt
  have hi1 : (i 1).val < 1024 := (i 1).isLt
  have hN : grid0.N = 32 := N_0
  have ht : (i 0).val / 256 < cfg0.N := by show (i 0).val / 256 < grid0.N; rw [hN]; omega
  obtain ⟨-, -, -, -, -, -, -, -, -, -, h50, h51, h60, h61⟩ := index_facts ⟨(i 0).val / 256, ht⟩
  refine ⟨⟨(i 0).val / 256, ht⟩, flush0_5 _, ?_⟩
  rw [mem_hiddenState_block]
  intro a
  match a with
  | ⟨0, _⟩ =>
    show win0_5.index ⟨(i 0).val / 256, ht⟩ (0 : Fin 2) * 256 ≤ (i 0).val ∧ (i 0).val < win0_5.index ⟨(i 0).val / 256, ht⟩ (0 : Fin 2) * 256 + 256
    have hv : (⟨(i 0).val / 256, ht⟩ : Fin cfg0.N).val = (i 0).val / 256 := rfl
    omega
  | ⟨1, _⟩ =>
    show win0_5.index ⟨(i 0).val / 256, ht⟩ (1 : Fin 2) * 1024 ≤ (i 1).val ∧ (i 1).val < win0_5.index ⟨(i 0).val / 256, ht⟩ (1 : Fin 2) * 1024 + 1024
    omega

/-! ## The result arrays after the run -/

/-- After the 32 write-backs the new cell state's array is `cellResult`. -/
theorem cell_final (c : Dev nD) : (pipelineData m 0 c).arrAt 6 cfg0.N = cellResult m c :=
  (pipelineData m 0 c).arrAt_eq_of_cover 6 (cellResult m c) (fun t _ => cell_flushed m c t) (fun i => cellState_covered i)

/-- After the 32 write-backs the new hidden state's array is `hiddenResult`. -/
theorem hidden_final (c : Dev nD) : (pipelineData m 0 c).arrAt 5 cfg0.N = hiddenResult m c :=
  (pipelineData m 0 c).arrAt_eq_of_cover 5 (hiddenResult m c) (fun t _ => hidden_flushed m c t) (fun i => hiddenState_covered i)

/-- The idealized kernel's run, read: every weakly fair execution terminates without a fault, the first
    result holds the new hidden state and the second the new cell state, each as the spec's function
    of the argument arrays, and the argument arrays are unchanged. -/
theorem run : θ_run defs (onTc (τ := τ) (main (F := Ideal))) ⟨m, fun _ => 0, ρ⟩ fun r => ∀ c : Dev nD,
      r.2.mem ((c.tc : Thread nD τ).loc main_v5_0) = hiddenResult m c
      ∧ r.2.mem ((c.tc : Thread nD τ).loc main_v5_1) = cellResult m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 5).trans (hidden_final m c), ((h c).1 6).trans (cell_final m c),
      args_unchanged m (pipelineData m) (arrays_atEntry m) r h c⟩)
    (run_main m ρ)

end Cert.KernelIdeal.Result

end
-- ==== Proof.RefValue.lean ====
/-
  The reference computes the spec's arrays.

  The reference joins hidden and inputs side by side into one [8192, 2048] matrix and contracts it
  with the whole fused weight matrix. Entry (r, n) of that product is a sum over 2048 positions; its
  first 1024 terms meet row r of hidden and the upper half of the weights, its last 1024 terms row r
  of inputs and the lower half: the spec's two sums. The bias is repeated on every row. The logistic
  function is spelled 1 / (1 + exp(−z)) there, which on the extended reals is the logistic function
  itself, by definition, at every argument including ±∞.
-/
import proofs.«140588_j57432302682693_2_alg».proof.Proof.Spec
import proofs.«140588_j57432302682693_2_alg».proof.Proof.Gen.ReferenceIdeal.Read
import Idealize.ShloMosaic.Lib.ValueIdx
import Idealize.ShloMosaic.Lib.Pipeline.Value
import Idealize.ShloMosaic.PureOps.Ideal.Laws

set_option maxRecDepth 16384

noncomputable section

namespace Cert.ReferenceIdeal.RefValue

open Cert.ReferenceIdeal Cert.ReferenceIdeal.Gen Cert.ReferenceIdeal.Read Cert.LstmCell
open Idealize.ShloMosaic Idealize.ShloMosaic.ValueIdx

/-- The word 0x3F800000 is the real number one. -/
theorem one_word : Ideal.ofBits .f32 0x3F800000#32 = (1 : EReal) := by
  simp [Ideal.ofBits, Ideal.ieee, -EReal.coe_mul]; norm_num

section
variable (x0 x1 x2 : (⟨S8192x1024, .f32⟩ : BufTy).Contents (Elt Ideal))
  (x3 : (⟨S1024x2048, .f32⟩ : BufTy).Contents (Elt Ideal)) (x4 : (⟨S1024, .f32⟩ : BufTy).Contents (Elt Ideal))
  (x5 : (⟨S1024x2048, .f32⟩ : BufTy).Contents (Elt Ideal)) (x6 : (⟨S1024, .f32⟩ : BufTy).Contents (Elt Ideal))
  (x7 : (⟨S1024x2048, .f32⟩ : BufTy).Contents (Elt Ideal)) (x8 : (⟨S1024, .f32⟩ : BufTy).Contents (Elt Ideal))
  (x9 : (⟨S1024x2048, .f32⟩ : BufTy).Contents (Elt Ideal)) (x10 : (⟨S1024, .f32⟩ : BufTy).Contents (Elt Ideal))

/-- Columns 0…1023 of the joined matrix are hidden's. -/
theorem joined_left (r : Fin 8192) (k : Fin 1024) :
    val_main_v0 (F := Ideal) x0 x1 (ix2 r (upperRow k)) = x1 (ix2 r k) := by
  unfold val_main_v0
  exact concatenate_pair_apply_left (1 : Fin 2) x1 x0 concatenates_S8192x1024_S8192x1024_S8192x2048_d1 (ix2 r (upperRow k)) rfl (ix2 r k)
    (fun b => match b with | ⟨0, _⟩ => rfl | ⟨1, _⟩ => rfl)

/-- Columns 1024…2047 of the joined matrix are inputs'. -/
theorem joined_right (r : Fin 8192) (k : Fin 1024) :
    val_main_v0 (F := Ideal) x0 x1 (ix2 r (lowerRow k)) = x0 (ix2 r k) := by
  unfold val_main_v0
  exact concatenate_pair_apply_right (1 : Fin 2) x1 x0 concatenates_S8192x1024_S8192x1024_S8192x2048_d1 (ix2 r (lowerRow k)) rfl rfl (ix2 r k)
    (fun b hb => match b, hb with | ⟨0, _⟩, _ => rfl | ⟨1, _⟩, hb => absurd rfl hb)
    (by show k.val + 1024 = 1024 + k.val; omega)

/-- The reference's gate pre-activations at (r, n) are the spec's. -/
theorem gates_at (r : Fin 8192) (n : Fin 4096) :
    val_main_v7 (F := Ideal) x0 x1 x3 x4 x5 x6 x7 x8 x9 x10 (ix2 r n)
      = pre (fun k => x1 (ix2 r k)) (fun k => x0 (ix2 r k)) (upperHalf (val_main_v3 (F := Ideal) x3 x5 x7 x9))
          (lowerHalf (val_main_v3 (F := Ideal) x3 x5 x7 x9)) (biasAt (val_main_v2 (F := Ideal) x4 x6 x8 x10)) n := by
  have il : ∀ k : Fin 2048, lidx_main_v4 (ix2 r n) k = ix2 r k := fun k => funext fun a => Fin.ext (by
    match a with | ⟨0, _⟩ => rfl | ⟨1, _⟩ => rfl)
  have ir : ∀ k : Fin 2048, ridx_main_v4 (ix2 r n) k = ix2 k n := fun k => funext fun a => Fin.ext (by
    match a with | ⟨0, _⟩ => rfl | ⟨1, _⟩ => rfl)
  have ib : idx_main_v5 (idx_main_v6 (ix2 r n)) = ix1 n := funext fun a => Fin.ext (by
    match a with | ⟨0, _⟩ => rfl)
  rw [val_main_v7_apply, val_main_v4_apply, val_main_v6_apply, val_main_v5_apply, contraction_split]
  simp only [il, ir, ib, joined_left, joined_right]
  rfl

/-- The reference's new cell state at (r, j) is the spec's. -/
theorem cell_ref (r : Fin 8192) (j : Fin 1024) :
    val_main_v33 (F := Ideal) x0 x1 x2 x3 x4 x5 x6 x7 x8 x9 x10 (ix2 r j)
      = cellArray x1 x0 x2 (val_main_v3 (F := Ideal) x3 x5 x7 x9) (val_main_v2 (F := Ideal) x4 x6 x8 x10) r j := by
  have i8 : idx_main_v8 (ix2 r j) = ix2 r (forgetCol j) := funext fun a => Fin.ext (by
    match a with | ⟨0, _⟩ => rfl | ⟨1, _⟩ => rfl)
  have i9 : idx_main_v9 (ix2 r j) = ix2 r (inputCol j) := funext fun a => Fin.ext (by
    match a with | ⟨0, _⟩ => rfl | ⟨1, _⟩ => rfl)
  have i11 : idx_main_v11 (ix2 r j) = ix2 r (candidateCol j) := funext fun a => Fin.ext (by
    match a with | ⟨0, _⟩ => rfl | ⟨1, _⟩ => rfl)
  rw [val_main_v33_apply, val_main_v31_apply, val_main_v32_apply, val_main_v17_apply, val_main_v23_apply, val_main_v30_apply,
    val_main_v16_apply, val_main_v22_apply, val_main_cst_0_apply, val_main_cst_2_apply, val_main_v15_apply, val_main_v21_apply,
    val_main_v14_apply, val_main_v20_apply, val_main_cst_apply, val_main_cst_1_apply, val_main_v13_apply, val_main_v19_apply,
    val_main_v12_apply, val_main_v18_apply, val_main_v8_apply, val_main_v9_apply, val_main_v11_apply, i8, i9, i11,
    gates_at, gates_at, gates_at]
  unfold cellArray cellNew
  simp only [Ideal.ofBits_def, one_word]
  rfl

/-- The reference's new hidden state at (r, j) is the spec's. -/
theorem hidden_ref (r : Fin 8192) (j : Fin 1024) :
    val_main_v35 (F := Ideal) x0 x1 x2 x3 x4 x5 x6 x7 x8 x9 x10 (ix2 r j)
      = hiddenArray x1 x0 x2 (val_main_v3 (F := Ideal) x3 x5 x7 x9) (val_main_v2 (F := Ideal) x4 x6 x8 x10) r j := by
  have i10 : idx_main_v10 (ix2 r j) = ix2 r (outputCol j) := funext fun a => Fin.ext (by
    match a with | ⟨0, _⟩ => rfl | ⟨1, _⟩ => rfl)
  rw [val_main_v35_apply, val_main_v29_apply, val_main_v34_apply, val_main_v28_apply, val_main_cst_4_apply, val_main_v27_apply,
    val_main_v26_apply, val_main_cst_3_apply, val_main_v25_apply, val_main_v24_apply, val_main_v10_apply, i10, gates_at, cell_ref]
  unfold hiddenArray hiddenNew cellArray
  simp only [Ideal.ofBits_def, one_word]
  rfl

/-- The reference's fused weight matrix is the shared term. -/
theorem weights_eq : val_main_v3 (F := Ideal) x3 x5 x7 x9
    = fusedWeights x3 x5 x7 x9 concatenates_S1024x2048_S1024x2048_S1024x2048_S1024x2048_S4096x2048_d0 transposes_S4096x2048_S2048x4096_1_0 := rfl

/-- The reference's fused bias is the shared term. -/
theorem bias_eq : val_main_v2 (F := Ideal) x4 x6 x8 x10
    = fusedBias x4 x6 x8 x10 concatenates_S1024_S1024_S1024_S1024_S4096_d0 := rfl

/-- The reference's second result, as an array, is the spec's new cell state. -/
theorem cell_array_eq : val_main_v33 (F := Ideal) x0 x1 x2 x3 x4 x5 x6 x7 x8 x9 x10
    = fun i => cellArray x1 x0 x2
        (fusedWeights x3 x5 x7 x9 concatenates_S1024x2048_S1024x2048_S1024x2048_S1024x2048_S4096x2048_d0 transposes_S4096x2048_S2048x4096_1_0)
        (fusedBias x4 x6 x8 x10 concatenates_S1024_S1024_S1024_S1024_S4096_d0) (i 0) (i 1) := by
  funext i
  obtain ⟨r, j, rfl⟩ : ∃ (r : Fin 8192) (j : Fin 1024), i = ix2 r j := ⟨i 0, i 1, eq_ix2 i⟩
  rw [cell_ref, weights_eq, bias_eq]

/-- The reference's first result, as an array, is the spec's new hidden state. -/
theorem hidden_array_eq : val_main_v35 (F := Ideal) x0 x1 x2 x3 x4 x5 x6 x7 x8 x9 x10
    = fun i => hiddenArray x1 x0 x2
        (fusedWeights x3 x5 x7 x9 concatenates_S1024x2048_S1024x2048_S1024x2048_S1024x2048_S4096x2048_d0 transposes_S4096x2048_S2048x4096_1_0)
        (fusedBias x4 x6 x8 x10 concatenates_S1024_S1024_S1024_S1024_S4096_d0) (i 0) (i 1) := by
  funext i
  obtain ⟨r, j, rfl⟩ : ∃ (r : Fin 8192) (j : Fin 1024), i = ix2 r j := ⟨i 0, i 1, eq_ix2 i⟩
  rw [hidden_ref, weights_eq, bias_eq]

end

end Cert.ReferenceIdeal.RefValue

end
-- ==== Proof.lean ====
/-
  An LSTM cell step as a fused Pallas kernel equals its jnp reference over the extended reals.

  The kernel tiles the batch of 8192 rows into 32 tiles of 256 rows; per tile it multiplies the hidden
  tile by the upper half of the fused [2048, 4096] weight matrix, the inputs tile by the lower half,
  adds the two products and the bias row, and applies the gates. The reference joins hidden and inputs
  side by side and contracts once with the whole matrix. At the ideal instance (floats are extended
  reals, operations exact, narrowing to bf16 the identity) both compute, in every row, the functions
  `cellNew` and `hiddenNew` of Proof/Spec.lean: the one law between them is that a sum over 2048
  positions is the sum over its two halves, which holds on the extended reals without any finiteness,
  and the kernel's logistic operation is by definition the reference's 1 / (1 + exp(−z)).

  The frames of the two printed kernels (Proof/Entry*, Tile*, Run*) run the pipeline library's launch
  over the body's triple; the idealized kernel's results are read off that run tile by tile
  (Proof/TileValue, KernelValue); the reference's run and its operations read at an index are the
  generated modules; Proof/RefValue identifies the reference's results with the spec's arrays.
-/
import proofs.«140588_j57432302682693_2_alg».proof.Defs
import proofs.«140588_j57432302682693_2_alg».proof.Proof.Gen.Kernel
import proofs.«140588_j57432302682693_2_alg».proof.Proof.Gen.KernelIdeal
import proofs.«140588_j57432302682693_2_alg».proof.Proof.Gen.ReferenceIdeal
import proofs.«140588_j57432302682693_2_alg».proof.Proof.Gen.Pre_finite_inputs
import proofs.«140588_j57432302682693_2_alg».proof.Proof.Gen.ReferenceIdeal.Run
import proofs.«140588_j57432302682693_2_alg».proof.Proof.Gen.ReferenceIdeal.Read
import proofs.«140588_j57432302682693_2_alg».proof.Proof.RunBits
import proofs.«140588_j57432302682693_2_alg».proof.Proof.RunIdeal
import proofs.«140588_j57432302682693_2_alg».proof.Proof.KernelValue
import proofs.«140588_j57432302682693_2_alg».proof.Proof.RefValue

set_option maxRecDepth 16384

noncomputable section

namespace Cert.Proof

open Idealize.ShloMosaic Idealize.ShloMosaic.TcCoe Idealize.SL.Sem

/-- The printed kernel runs to the end, faults nowhere and leaves its arguments unchanged. -/
theorem frame_kernel : Cert.frame_Kernel := fun m ρ _ => Cert.Kernel.Region.frame m ρ

/-- So does its idealization. -/
theorem frame_kernelIdeal : Cert.frame_KernelIdeal := fun m ρ _ => Cert.KernelIdeal.Region.frame m ρ

/-- And the reference: its generated run with the results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The ideal pass rewrote no operation. -/
theorem preserves : Cert.preserves_Kernel_KernelIdeal := trivial

/-- From memories that agree on the arguments both idealized programs run, and both end with the
    spec's new hidden state in the first result and the spec's new cell state in the second. -/
theorem algebraic : Cert.algebraic_KernelIdeal_ReferenceIdeal := by
  intro m ρ m' ρ' _ hagree
  refine ⟨fun c => Cert.KernelIdeal.Result.hiddenResult m c, fun c => Cert.KernelIdeal.Result.cellResult m c,
    Cert.KernelIdeal.Result.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · rw [Cert.ReferenceIdeal.Read.val_main_v35_eq, Cert.ReferenceIdeal.RefValue.hidden_array_eq]
    obtain ⟨a0, a1, a2, a3, a4, a5, a6, a7, a8, a9, a10⟩ := hagree c
    rw [a0, a1, a2, a3, a4, a5, a6, a7, a8, a9, a10]
    rfl
  · rw [Cert.ReferenceIdeal.Read.val_main_v33_eq, Cert.ReferenceIdeal.RefValue.cell_array_eq]
    obtain ⟨a0, a1, a2, a3, a4, a5, a6, a7, a8, a9, a10⟩ := hagree c
    rw [a0, a1, a2, a3, a4, a5, a6, a7, a8, a9, a10]
    rfl

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
